-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S3x128x128 .f32) (main_arg4 : FVec F S3x128 .f32) (main_arg5 : FVec F S3x128x128 .f32) (main_arg6 : FVec F S3x128 .f32) (main_arg7 : FVec F S3x128x128 .f32) (main_arg8 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩

abbrev nBuf : Space → Nat
  | .hbm => 139
  | .vmem => 72
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S1x128x128, .f32⟩
  | 51 => ⟨S128x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S1x128x128, .f32⟩
  | 83 => ⟨S128x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S1x128x128, .f32⟩
  | 115 => ⟨S128x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64_0 : Ref sig .tc := ⟨.hbm, 87, rfl⟩
abbrev main_v64_1 : Ref sig .tc := ⟨.hbm, 88, rfl⟩
abbrev main_c_9 : Ref sig .tc := ⟨.hbm, 89, rfl⟩
abbrev main_v65 : Ref sig .tc := ⟨.hbm, 90, rfl⟩
abbrev main_v66 : Ref sig .tc := ⟨.hbm, 91, rfl⟩
abbrev main_c_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92_0 : Ref sig .tc := ⟨.hbm, 119, rfl⟩
abbrev main_v92_1 : Ref sig .tc := ⟨.hbm, 120, rfl⟩
abbrev main_c_12 : Ref sig .tc := ⟨.hbm, 121, rfl⟩
abbrev main_v93 : Ref sig .tc := ⟨.hbm, 122, rfl⟩
abbrev main_v94 : Ref sig .tc := ⟨.hbm, 123, rfl⟩
abbrev main_c_13 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_14 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_15 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg8_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc4_sem8_0 : DmaSem sig := 60
abbrev cc4_sem8_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem4_0 : DmaSem sig := 69
abbrev cc5_sem5_0 : DmaSem sig := 70
abbrev cc5_sem5_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v36_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v64_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v19) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v92_1) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v102) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92_0) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 253
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S_, .f32⟩
  | 24 => ⟨S50000x128, .f32⟩
  | 25 => ⟨S50000x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call2_cst : Ref sig .tc := ⟨.hbm, 96, rfl⟩
abbrev main_call2_v0 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_9 : Ref sig .tc := ⟨.hbm, 102, rfl⟩
abbrev main_v76 : Ref sig .tc := ⟨.hbm, 103, rfl⟩
abbrev main_v77 : Ref sig .tc := ⟨.hbm, 104, rfl⟩
abbrev main_c_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call3_cst : Ref sig .tc := ⟨.hbm, 134, rfl⟩
abbrev main_call3_v0 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_12 : Ref sig .tc := ⟨.hbm, 139, rfl⟩
abbrev main_v108 : Ref sig .tc := ⟨.hbm, 140, rfl⟩
abbrev main_v109 : Ref sig .tc := ⟨.hbm, 141, rfl⟩
abbrev main_c_13 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_14 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_call4_cst : Ref sig .tc := ⟨.hbm, 171, rfl⟩
abbrev main_call4_v0 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_15 : Ref sig .tc := ⟨.hbm, 177, rfl⟩
abbrev main_v141 : Ref sig .tc := ⟨.hbm, 178, rfl⟩
abbrev main_v142 : Ref sig .tc := ⟨.hbm, 179, rfl⟩
abbrev main_c_16 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_17 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_call5_cst : Ref sig .tc := ⟨.hbm, 209, rfl⟩
abbrev main_call5_v0 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_c_18 : Ref sig .tc := ⟨.hbm, 214, rfl⟩
abbrev main_v173 : Ref sig .tc := ⟨.hbm, 215, rfl⟩
abbrev main_v174 : Ref sig .tc := ⟨.hbm, 216, rfl⟩
abbrev main_c_19 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_20 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_call6_cst : Ref sig .tc := ⟨.hbm, 246, rfl⟩
abbrev main_call6_v0 : Ref sig .tc := ⟨.hbm, 247, rfl⟩
abbrev main_v202 : Ref sig .tc := ⟨.hbm, 248, rfl⟩
abbrev main_v203 : Ref sig .tc := ⟨.hbm, 249, rfl⟩
abbrev main_cst_21 : Ref sig .tc := ⟨.hbm, 250, rfl⟩
abbrev main_v204 : Ref sig .tc := ⟨.hbm, 251, rfl⟩
abbrev main_v205 : Ref sig .tc := ⟨.hbm, 252, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its RESULT named.

  @main is fifteen segments: host stretches and six row-tiled launches. From any memory, every weakly fair execution
  terminates and the final memory holds, at every buffer that outlives a launch, what the fold of the segments leaves there
  (`Gen.W15`): the launch memory pushed through each host stretch's operations and each launch's write-backs in turn. The
  generated frame states this for the argument arrays only; here the same launch is read at the result buffer as well.
-/
import proofs.«101264_j58145267253837_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and any property of memories that hold the last
    boundary's contents at every buffer outliving a launch holds of the final memory. -/
theorem run_last {Q : PUnit × MemSt nD τ sig (Elt F) → Prop}
    (hQ : ∀ s : MemSt nD τ sig (Elt F),
      (∀ c : Dev nD, ∀ b ∈ Pipeline.ucRefs τ sig, s.mem (((c : Thread nD τ)).1, b) = W15 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := hQ)

/-- The run with the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v106) = W15 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_last m ρ (fun s h c =>
      ⟨h c _ (mem_uc main_v106 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Whole

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«101264_j58145267253837_2_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.ArmaLayers.lean ====
/-
  The dense steps of a two-layer residual graph convolution, entry by entry on the extended reals, for any number of rows.

  `d` is a column of per-row scales. `scaleRows A d` multiplies row r of A by d r. `rowAffine X W b` is a linear layer whose
  bias is a [1, M] row: entry (r, c) is row r of X against column c of W, plus b (0, c). The two layers are

    firstLayer  A X d W0 b0 V bv = max ((A ⊙ d)·W0 + b0 + (X·V + bv), 0) ⊙ d
    secondLayer A d R W bw       = max ((A ⊙ d)·W  + bw + R, 0)

  Row r of each depends only on row r of A, X, d and R, so a block of rows of the output is the same function of that
  block of rows of the inputs (`firstLayer_rows`, `secondLayer_rows`, `rowAffine_rows`): all a row-tiled launch needs.

  Below, each is read off the two ways it is computed: a block kernel's arithmetic (a matrix unit's product of operands
  converted to a narrower float format on the way in — the identity here — into a zero accumulator, the bias row and the
  scale column stretched over the block), and the host's (a general dot product, the row and the column broadcast, the
  zero of the maximum broadcast from a scalar).
-/
import Idealize.ShloMosaic.PureOps.Ideal.Laws
import Idealize.ShloMosaic.Lib.ValueIdx
import Idealize.ShloMosaic.Lib.ValueLayout
import Idealize.ShloMosaic.Lib.Pipeline.Value
import proofs.«101264_j58145267253837_2_alg».proof.Proof.LibMatDot
import proofs.«101264_j58145267253837_2_alg».proof.Proof.LibColumn
import proofs.«101264_j58145267253837_2_alg».proof.Proof.LibColumnForms
import proofs.«101264_j58145267253837_2_alg».proof.Proof.LibSlabs

noncomputable section

namespace Cert.Arma

open Idealize.ShloMosaic Idealize.ShloMosaic.ValueIdx Cert.Lib
open scoped BigOperators

variable {n K M : ℕ}

/-- The zero word. -/
abbrev zeroW : EReal := Ideal.ofBits .f32 0x00000000#32

/-- Row r of A times the column's entry r. -/
def scaleRows (A : FVec Ideal ⟨2, ![n, K]⟩ .f32) (d : FVec Ideal ⟨2, ![n, 1]⟩ .f32) : FVec Ideal ⟨2, ![n, K]⟩ .f32 :=
  fun j => A j * d (ix2 (j 0) (0 : Fin 1))

/-- A linear layer with the bias as a row: entry (r, c) is the sum over k of X (r, k) · W (k, c), plus b (0, c). -/
def rowAffine (X : FVec Ideal ⟨2, ![n, K]⟩ .f32) (W : FVec Ideal ⟨2, ![K, M]⟩ .f32) (b : FVec Ideal ⟨2, ![1, M]⟩ .f32) :
    FVec Ideal ⟨2, ![n, M]⟩ .f32 :=
  fun i => (∑ k : Fin K, X (ix2 (i 0) k) * W (ix2 k (i 1))) + b (ix2 (0 : Fin 1) (i 1))

/-- max ((A ⊙ d)·W0 + b0 + (X·V + bv), 0) ⊙ d. -/
def firstLayer (A X : FVec Ideal ⟨2, ![n, K]⟩ .f32) (d : FVec Ideal ⟨2, ![n, 1]⟩ .f32)
    (W0 : FVec Ideal ⟨2, ![K, M]⟩ .f32) (b0 : FVec Ideal ⟨2, ![1, M]⟩ .f32)
    (V : FVec Ideal ⟨2, ![K, M]⟩ .f32) (bv : FVec Ideal ⟨2, ![1, M]⟩ .f32) : FVec Ideal ⟨2, ![n, M]⟩ .f32 :=
  fun i => max (rowAffine (scaleRows A d) W0 b0 i + rowAffine X V bv i) zeroW * d (ix2 (i 0) (0 : Fin 1))

/-- max ((A ⊙ d)·W + bw + R, 0). -/
def secondLayer (A : FVec Ideal ⟨2, ![n, K]⟩ .f32) (d : FVec Ideal ⟨2, ![n, 1]⟩ .f32) (R : FVec Ideal ⟨2, ![n, M]⟩ .f32)
    (W : FVec Ideal ⟨2, ![K, M]⟩ .f32) (bw : FVec Ideal ⟨2, ![1, M]⟩ .f32) : FVec Ideal ⟨2, ![n, M]⟩ .f32 :=
  fun i => max (rowAffine (scaleRows A d) W bw i + R i) zeroW

theorem scaleRows_apply (A : FVec Ideal ⟨2, ![n, K]⟩ .f32) (d : FVec Ideal ⟨2, ![n, 1]⟩ .f32) (p : Fin n) (k : Fin K) :
    scaleRows A d (ix2 p k) = A (ix2 p k) * d (ix2 p (0 : Fin 1)) := rfl

theorem rowAffine_apply (X : FVec Ideal ⟨2, ![n, K]⟩ .f32) (W : FVec Ideal ⟨2, ![K, M]⟩ .f32) (b : FVec Ideal ⟨2, ![1, M]⟩ .f32)
    (p : Fin n) (q : Fin M) :
    rowAffine X W b (ix2 p q) = (∑ k : Fin K, X (ix2 p k) * W (ix2 k q)) + b (ix2 (0 : Fin 1) q) := rfl

theorem firstLayer_apply (A X : FVec Ideal ⟨2, ![n, K]⟩ .f32) (d : FVec Ideal ⟨2, ![n, 1]⟩ .f32)
    (W0 : FVec Ideal ⟨2, ![K, M]⟩ .f32) (b0 : FVec Ideal ⟨2, ![1, M]⟩ .f32)
    (V : FVec Ideal ⟨2, ![K, M]⟩ .f32) (bv : FVec Ideal ⟨2, ![1, M]⟩ .f32) (p : Fin n) (q : Fin M) :
    firstLayer A X d W0 b0 V bv (ix2 p q)
      = max (((∑ k : Fin K, (A (ix2 p k) * d (ix2 p (0 : Fin 1))) * W0 (ix2 k q)) + b0 (ix2 (0 : Fin 1) q))
          + ((∑ k : Fin K, X (ix2 p k) * V (ix2 k q)) + bv (ix2 (0 : Fin 1) q))) zeroW * d (ix2 p (0 : Fin 1)) := rfl

theorem secondLayer_apply (A : FVec Ideal ⟨2, ![n, K]⟩ .f32) (d : FVec Ideal ⟨2, ![n, 1]⟩ .f32) (R : FVec Ideal ⟨2, ![n, M]⟩ .f32)
    (W : FVec Ideal ⟨2, ![K, M]⟩ .f32) (bw : FVec Ideal ⟨2, ![1, M]⟩ .f32) (p : Fin n) (q : Fin M) :
    secondLayer A d R W bw (ix2 p q)
      = max (((∑ k : Fin K, (A (ix2 p k) * d (ix2 p (0 : Fin 1))) * W (ix2 k q)) + bw (ix2 (0 : Fin 1) q)) + R (ix2 p q)) zeroW := rfl

/-! ## Rows: a row of the output from the same row of the inputs -/

variable {n' : ℕ}

theorem rowAffine_rows (X : FVec Ideal ⟨2, ![n, K]⟩ .f32) (X' : FVec Ideal ⟨2, ![n', K]⟩ .f32) (W : FVec Ideal ⟨2, ![K, M]⟩ .f32)
    (b : FVec Ideal ⟨2, ![1, M]⟩ .f32) (r : Fin n) (r' : Fin n') (hX : ∀ k, X (ix2 r k) = X' (ix2 r' k)) (q : Fin M) :
    rowAffine X W b (ix2 r q) = rowAffine X' W b (ix2 r' q) := by
  rw [rowAffine_apply, rowAffine_apply]
  simp only [hX]

theorem firstLayer_rows (A X : FVec Ideal ⟨2, ![n, K]⟩ .f32) (d : FVec Ideal ⟨2, ![n, 1]⟩ .f32)
    (A' X' : FVec Ideal ⟨2, ![n', K]⟩ .f32) (d' : FVec Ideal ⟨2, ![n', 1]⟩ .f32)
    (W0 : FVec Ideal ⟨2, ![K, M]⟩ .f32) (b0 : FVec Ideal ⟨2, ![1, M]⟩ .f32)
    (V : FVec Ideal ⟨2, ![K, M]⟩ .f32) (bv : FVec Ideal ⟨2, ![1, M]⟩ .f32) (r : Fin n) (r' : Fin n')
    (hA : ∀ k, A (ix2 r k) = A' (ix2 r' k)) (hX : ∀ k, X (ix2 r k) = X' (ix2 r' k))
    (hd : d (ix2 r (0 : Fin 1)) = d' (ix2 r' (0 : Fin 1))) (q : Fin M) :
    firstLayer A X d W0 b0 V bv (ix2 r q) = firstLayer A' X' d' W0 b0 V bv (ix2 r' q) := by
  rw [firstLayer_apply, firstLayer_apply, hd]
  simp only [hA, hX]

theorem secondLayer_rows (A : FVec Ideal ⟨2, ![n, K]⟩ .f32) (d : FVec Ideal ⟨2, ![n, 1]⟩ .f32) (R : FVec Ideal ⟨2, ![n, M]⟩ .f32)
    (A' : FVec Ideal ⟨2, ![n', K]⟩ .f32) (d' : FVec Ideal ⟨2, ![n', 1]⟩ .f32) (R' : FVec Ideal ⟨2, ![n', M]⟩ .f32)
    (W : FVec Ideal ⟨2, ![K, M]⟩ .f32) (bw : FVec Ideal ⟨2, ![1, M]⟩ .f32) (r : Fin n) (r' : Fin n')
    (hA : ∀ k, A (ix2 r k) = A' (ix2 r' k)) (hd : d (ix2 r (0 : Fin 1)) = d' (ix2 r' (0 : Fin 1)))
    (q : Fin M) (hR : R (ix2 r q) = R' (ix2 r' q)) :
    secondLayer A d R W bw (ix2 r q) = secondLayer A' d' R' W bw (ix2 r' q) := by
  rw [secondLayer_apply, secondLayer_apply, hd, hR]
  simp only [hA]

/-! ## A block kernel's arithmetic -/

section Kernel

variable (wf : DotDims.WF ⟨2, ![n, K]⟩ ⟨2, ![K, M]⟩ ⟨2, ![n, M]⟩ [1] [0] [0] [1] [] [])
variable {ψ : FTy} (h : ψ.bits < FTy.f32.bits)

/-- The block times the stretched scale column is the block with its rows scaled. -/
theorem kernel_scaleRows (x0 : FVec Ideal ⟨2, ![n, K]⟩ .f32) (x2 : FVec Ideal ⟨2, ![n, 1]⟩ .f32)
    (hbK : (⟨2, ![n, 1]⟩ : Shape).Broadcasts ⟨2, ![n, K]⟩) :
    mulf x0 (broadcastTo ⟨2, ![n, K]⟩ x2 hbK) = scaleRows x0 x2 := by
  funext j
  obtain ⟨r, k, rfl⟩ : ∃ (r : Fin n) (k : Fin K), j = ix2 r k := ⟨j 0, j 1, eq_ix2 j⟩
  show x0 (ix2 r k) * broadcastTo ⟨2, ![n, K]⟩ x2 hbK (ix2 r k) = _
  rw [broadcastTo_a1_ab_apply]
  rfl

/-- The matrix unit's product of the block with the weights into a zero accumulator, plus the bias row stretched down
    the rows: the linear layer. -/
theorem kernel_rowAffine (x1 : FVec Ideal ⟨2, ![n, K]⟩ .f32) (x5 : FVec Ideal ⟨2, ![K, M]⟩ .f32) (x6 : FVec Ideal ⟨2, ![1, M]⟩ .f32)
    (hw : (⟨2, ![K, M]⟩ : Shape).ShapeCasts ⟨2, ![K, M]⟩) (hr : (⟨2, ![1, M]⟩ : Shape).ShapeCasts ⟨2, ![1, M]⟩)
    (hb : (⟨2, ![1, M]⟩ : Shape).Broadcasts ⟨2, ![n, M]⟩) :
    addf (matmul (matDot wf) none (truncf ψ x1 h) (truncf ψ (shapeCast ⟨2, ![K, M]⟩ x5 hw) h) (constant ⟨2, ![n, M]⟩ .f32 0x00000000#32))
        (broadcastTo ⟨2, ![n, M]⟩ (shapeCast ⟨2, ![1, M]⟩ x6 hr) hb) = rowAffine x1 x5 x6 := by
  funext i
  obtain ⟨p, q, rfl⟩ : ∃ (p : Fin n) (q : Fin M), i = ix2 p q := ⟨i 0, i 1, eq_ix2 i⟩
  rw [shapeCast_self, shapeCast_self]
  show FloatOps.matmul (matDot wf) none (truncf ψ x1 h) (truncf ψ x5 h) (constant ⟨2, ![n, M]⟩ .f32 0x00000000#32) (ix2 p q)
      + broadcastTo ⟨2, ![n, M]⟩ x6 hb (ix2 p q) = _
  rw [matmul_plain_zero_apply, broadcastTo_1b_ab_apply]
  rfl

/-- The first layer as the block kernel spells it. -/
theorem kernel_firstLayer (x2 : FVec Ideal ⟨2, ![n, 1]⟩ .f32) (x0 x1 : FVec Ideal ⟨2, ![n, K]⟩ .f32)
    (x3 x5 : FVec Ideal ⟨2, ![K, M]⟩ .f32) (x4 x6 : FVec Ideal ⟨2, ![1, M]⟩ .f32)
    (hd : (⟨2, ![n, 1]⟩ : Shape).ShapeCasts ⟨2, ![n, 1]⟩) (ha : (⟨2, ![n, K]⟩ : Shape).ShapeCasts ⟨2, ![n, K]⟩)
    (hw : (⟨2, ![K, M]⟩ : Shape).ShapeCasts ⟨2, ![K, M]⟩) (hr : (⟨2, ![1, M]⟩ : Shape).ShapeCasts ⟨2, ![1, M]⟩)
    (hbK : (⟨2, ![n, 1]⟩ : Shape).Broadcasts ⟨2, ![n, K]⟩) (hbM : (⟨2, ![n, 1]⟩ : Shape).Broadcasts ⟨2, ![n, M]⟩)
    (hb : (⟨2, ![1, M]⟩ : Shape).Broadcasts ⟨2, ![n, M]⟩) :
    mulf (maximumf
        (addf
          (addf (matmul (matDot wf) none
              (truncf ψ (mulf (shapeCast ⟨2, ![n, K]⟩ x0 ha) (broadcastTo ⟨2, ![n, K]⟩ (shapeCast ⟨2, ![n, 1]⟩ x2 hd) hbK)) h)
              (truncf ψ (shapeCast ⟨2, ![K, M]⟩ x3 hw) h) (constant ⟨2, ![n, M]⟩ .f32 0x00000000#32))
            (broadcastTo ⟨2, ![n, M]⟩ (shapeCast ⟨2, ![1, M]⟩ x4 hr) hb))
          (addf (matmul (matDot wf) none (truncf ψ x1 h) (truncf ψ (shapeCast ⟨2, ![K, M]⟩ x5 hw) h) (constant ⟨2, ![n, M]⟩ .f32 0x00000000#32))
            (broadcastTo ⟨2, ![n, M]⟩ (shapeCast ⟨2, ![1, M]⟩ x6 hr) hb)))
        (broadcast ⟨2, ![n, M]⟩ (Scalar.ofBits (F := Ideal) .f32 0x00000000#32)))
      (broadcastTo ⟨2, ![n, M]⟩ (shapeCast ⟨2, ![n, 1]⟩ x2 hd) hbM)
      = firstLayer x0 x1 x2 x3 x4 x5 x6 := by
  rw [kernel_rowAffine wf h x1 x5 x6 hw hr hb]
  rw [shapeCast_self, shapeCast_self, shapeCast_self, shapeCast_self, kernel_scaleRows x0 x2 hbK]
  funext i
  obtain ⟨p, q, rfl⟩ : ∃ (p : Fin n) (q : Fin M), i = ix2 p q := ⟨i 0, i 1, eq_ix2 i⟩
  show max ((FloatOps.matmul (matDot wf) none (truncf ψ (scaleRows x0 x2) h) (truncf ψ x3 h) (constant ⟨2, ![n, M]⟩ .f32 0x00000000#32) (ix2 p q)
        + broadcastTo ⟨2, ![n, M]⟩ x4 hb (ix2 p q)) + rowAffine x1 x5 x6 (ix2 p q)) _
      * broadcastTo ⟨2, ![n, M]⟩ x2 hbM (ix2 p q) = _
  rw [matmul_plain_zero_apply, broadcastTo_1b_ab_apply, broadcastTo_a1_ab_apply]
  rfl

/-- The second layer as the block kernel spells it. -/
theorem kernel_secondLayer (x1 : FVec Ideal ⟨2, ![n, 1]⟩ .f32) (x0 : FVec Ideal ⟨2, ![n, K]⟩ .f32) (x2 : FVec Ideal ⟨2, ![n, M]⟩ .f32)
    (x3 : FVec Ideal ⟨2, ![K, M]⟩ .f32) (x4 : FVec Ideal ⟨2, ![1, M]⟩ .f32)
    (hd : (⟨2, ![n, 1]⟩ : Shape).ShapeCasts ⟨2, ![n, 1]⟩) (ha : (⟨2, ![n, K]⟩ : Shape).ShapeCasts ⟨2, ![n, K]⟩)
    (ho : (⟨2, ![n, M]⟩ : Shape).ShapeCasts ⟨2, ![n, M]⟩)
    (hw : (⟨2, ![K, M]⟩ : Shape).ShapeCasts ⟨2, ![K, M]⟩) (hr : (⟨2, ![1, M]⟩ : Shape).ShapeCasts ⟨2, ![1, M]⟩)
    (hbK : (⟨2, ![n, 1]⟩ : Shape).Broadcasts ⟨2, ![n, K]⟩) (hb : (⟨2, ![1, M]⟩ : Shape).Broadcasts ⟨2, ![n, M]⟩) :
    maximumf
        (addf
          (addf (matmul (matDot wf) none
              (truncf ψ (mulf (shapeCast ⟨2, ![n, K]⟩ x0 ha) (broadcastTo ⟨2, ![n, K]⟩ (shapeCast ⟨2, ![n, 1]⟩ x1 hd) hbK)) h)
              (truncf ψ (shapeCast ⟨2, ![K, M]⟩ x3 hw) h) (constant ⟨2, ![n, M]⟩ .f32 0x00000000#32))
            (broadcastTo ⟨2, ![n, M]⟩ (shapeCast ⟨2, ![1, M]⟩ x4 hr) hb))
          (shapeCast ⟨2, ![n, M]⟩ x2 ho))
        (broadcast ⟨2, ![n, M]⟩ (Scalar.ofBits (F := Ideal) .f32 0x00000000#32))
      = secondLayer x0 x1 x2 x3 x4 := by
  rw [shapeCast_self, shapeCast_self, shapeCast_self, shapeCast_self, shapeCast_self, kernel_scaleRows x0 x1 hbK]
  funext i
  obtain ⟨p, q, rfl⟩ : ∃ (p : Fin n) (q : Fin M), i = ix2 p q := ⟨i 0, i 1, eq_ix2 i⟩
  show max ((FloatOps.matmul (matDot wf) none (truncf ψ (scaleRows x0 x1) h) (truncf ψ x3 h) (constant ⟨2, ![n, M]⟩ .f32 0x00000000#32) (ix2 p q)
        + broadcastTo ⟨2, ![n, M]⟩ x4 hb (ix2 p q)) + x2 (ix2 p q)) _ = _
  rw [matmul_plain_zero_apply, broadcastTo_1b_ab_apply]
  rfl

end Kernel

/-! ## The host's arithmetic -/

section Host

variable (wf : DotDims.WF ⟨2, ![n, K]⟩ ⟨2, ![K, M]⟩ ⟨2, ![n, M]⟩ [1] [0] [0] [1] [] [])

/-- The array times the broadcast scale column is the array with its rows scaled. -/
theorem host_scaleRows (A : FVec Ideal ⟨2, ![n, K]⟩ .f32) (d : FVec Ideal ⟨2, ![n, 1]⟩ .f32)
    (hc : (⟨2, ![n, 1]⟩ : Shape).BroadcastsInDim ⟨2, ![n, K]⟩ (![0, 1] : Fin 2 → Fin 2)) :
    mulf A (broadcastInDim ⟨2, ![n, K]⟩ ![0, 1] hc d) = scaleRows A d := by
  funext j
  obtain ⟨r, k, rfl⟩ : ∃ (r : Fin n) (k : Fin K), j = ix2 r k := ⟨j 0, j 1, eq_ix2 j⟩
  show A (ix2 r k) * broadcastInDim ⟨2, ![n, K]⟩ ![0, 1] hc d (ix2 r k) = _
  rw [cols_of_oneCol]
  rfl

/-- The host's general dot product plus the broadcast bias row: the linear layer. -/
theorem host_rowAffine (X : FVec Ideal ⟨2, ![n, K]⟩ .f32) (W : FVec Ideal ⟨2, ![K, M]⟩ .f32) (b : FVec Ideal ⟨2, ![1, M]⟩ .f32)
    (h2 : (⟨2, ![1, M]⟩ : Shape).BroadcastsInDim ⟨2, ![n, M]⟩ (![0, 1] : Fin 2 → Fin 2)) :
    addf (Host.dotGeneral (F := Ideal) (matDot wf) none X W) (broadcastInDim ⟨2, ![n, M]⟩ ![0, 1] h2 b) = rowAffine X W b := by
  funext i
  obtain ⟨p, q, rfl⟩ : ∃ (p : Fin n) (q : Fin M), i = ix2 p q := ⟨i 0, i 1, eq_ix2 i⟩
  show FloatOps.dotGeneral (matDot wf) none _ X W (ix2 p q) + broadcastInDim ⟨2, ![n, M]⟩ ![0, 1] h2 b (ix2 p q) = _
  rw [dotGeneral_plain_apply, rows_of_oneRow]
  rfl

/-- The first layer as the host spells it. -/
theorem host_firstLayer (A X : FVec Ideal ⟨2, ![n, K]⟩ .f32) (d : FVec Ideal ⟨2, ![n, 1]⟩ .f32)
    (W0 : FVec Ideal ⟨2, ![K, M]⟩ .f32) (b0 : FVec Ideal ⟨2, ![1, M]⟩ .f32)
    (V : FVec Ideal ⟨2, ![K, M]⟩ .f32) (bv : FVec Ideal ⟨2, ![1, M]⟩ .f32)
    (hcK : (⟨2, ![n, 1]⟩ : Shape).BroadcastsInDim ⟨2, ![n, K]⟩ (![0, 1] : Fin 2 → Fin 2))
    (hcM : (⟨2, ![n, 1]⟩ : Shape).BroadcastsInDim ⟨2, ![n, M]⟩ (![0, 1] : Fin 2 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2)) :
    mulf (maximumf
        (addf
          (addf (Host.dotGeneral (F := Ideal) (matDot wf) none (mulf A (broadcastInDim ⟨2, ![n, K]⟩ ![0, 1] hcK d)) W0)
            (broadcastInDim ⟨2, ![n, M]⟩ ![0, 1] h2 b0))
          (addf (Host.dotGeneral (F := Ideal) (matDot wf) none X V) (broadcastInDim ⟨2, ![n, M]⟩ ![0, 1] h2 bv)))
        (broadcastInDim ⟨2, ![n, M]⟩ ![] h0 (constant (F := Ideal) ⟨0, ![]⟩ .f32 0x00000000#32)))
      (broadcastInDim ⟨2, ![n, M]⟩ ![0, 1] hcM d)
      = firstLayer A X d W0 b0 V bv := by
  rw [host_scaleRows A d hcK, host_rowAffine wf (scaleRows A d) W0 b0 h2, host_rowAffine wf X V bv h2]
  funext i
  obtain ⟨p, q, rfl⟩ : ∃ (p : Fin n) (q : Fin M), i = ix2 p q := ⟨i 0, i 1, eq_ix2 i⟩
  show max (rowAffine (scaleRows A d) W0 b0 (ix2 p q) + rowAffine X V bv (ix2 p q))
        (broadcastInDim ⟨2, ![n, M]⟩ ![] h0 (constant (F := Ideal) ⟨0, ![]⟩ .f32 0x00000000#32) (ix2 p q))
      * broadcastInDim ⟨2, ![n, M]⟩ ![0, 1] hcM d (ix2 p q) = _
  rw [cols_of_oneCol]
  rfl

/-- The second layer as the host spells it, the residual computed beside it. -/
theorem host_secondLayer (A X : FVec Ideal ⟨2, ![n, K]⟩ .f32) (d : FVec Ideal ⟨2, ![n, 1]⟩ .f32)
    (W : FVec Ideal ⟨2, ![K, M]⟩ .f32) (bw : FVec Ideal ⟨2, ![1, M]⟩ .f32)
    (V : FVec Ideal ⟨2, ![K, M]⟩ .f32) (bv : FVec Ideal ⟨2, ![1, M]⟩ .f32)
    (hcK : (⟨2, ![n, 1]⟩ : Shape).BroadcastsInDim ⟨2, ![n, K]⟩ (![0, 1] : Fin 2 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2)) :
    maximumf
        (addf
          (addf (Host.dotGeneral (F := Ideal) (matDot wf) none (mulf A (broadcastInDim ⟨2, ![n, K]⟩ ![0, 1] hcK d)) W)
            (broadcastInDim ⟨2, ![n, M]⟩ ![0, 1] h2 bw))
          (addf (Host.dotGeneral (F := Ideal) (matDot wf) none X V) (broadcastInDim ⟨2, ![n, M]⟩ ![0, 1] h2 bv)))
        (broadcastInDim ⟨2, ![n, M]⟩ ![] h0 (constant (F := Ideal) ⟨0, ![]⟩ .f32 0x00000000#32))
      = secondLayer A d (rowAffine X V bv) W bw := by
  rw [host_scaleRows A d hcK, host_rowAffine wf (scaleRows A d) W bw h2, host_rowAffine wf X V bv h2]
  rfl

end Host

end Cert.Arma

end
-- ==== Proof.KernelModel.lean ====
/-
  The idealized kernel program's result as one function of its nine argument arrays.

  From the destination indices: each node's degree (the edges ending at it, counted by a scatter-add of ones, at least one)
  and its scale, the degree to the power -1/2, laid out as a column. `propagate` sums, for every node, the rows of an array
  at the sources of the edges ending at it (a gather at the source indices — a negative index counted from the end —, then a
  scatter-add at the destinations). A stack's result is the second layer of the propagated first layer, and the model is the
  sum of the three stacks' results divided by three.
-/
import proofs.«101264_j58145267253837_2_alg».proof.Proof.ArmaLayers
import proofs.«101264_j58145267253837_2_alg».proof.Proof.Gen.KernelIdeal
import Idealize.ShloMosaic.PureOps.Ideal

noncomputable section

namespace Cert.KernelIdeal.Whole

open Cert.KernelIdeal Cert.KernelIdeal.Facts₀ Cert.KernelIdeal.Facts Cert.Arma
open Idealize.ShloMosaic Idealize.ShloMosaic.TcCoe Idealize.SL.Sem

abbrev Nodes := FVec Ideal S50000x128 .f32
abbrev Edges := (⟨S800000, .i32⟩ : BufTy).Contents (Elt Ideal)
abbrev Mats := FVec Ideal S3x128x128 .f32
abbrev Rows := FVec Ideal S3x128 .f32

/-- The all-zero node array. -/
def zeros : Nodes :=
  broadcastInDim S50000x128 ![] bcast_S_S50000x128 (constant (F := Ideal) S_ .f32 0x00000000#32)

/-- Each node's scale: (max 1 (number of edges ending at it)) ^ (-1/2), as a column. -/
def normCol (dst : Edges) : FVec Ideal S50000x1 .f32 :=
  broadcastInDim S50000x1 ![0] bcast_S50000_S50000x1_0
    (Host.powf (F := Ideal)
      (maximumf (F := Ideal) (broadcastInDim S50000 ![] bcast_S_S50000 (id (constant (F := Ideal) S_ .f32 0x3F800000#32)))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32))))
      (broadcastInDim S50000 ![] bcast_S_S50000 (constant (F := Ideal) S_ .f32 0xBF000000#32)))

/-- For every node, the sum of the rows of `h` at the sources of the edges ending at it. -/
def propagate (src dst : Edges) (h : Nodes) : Nodes :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The propagated scaled features: shared by the three stacks. -/
def agg0 (feats : Nodes) (src dst : Edges) : Nodes :=
  propagate src dst (mulf (F := Ideal) feats (broadcastInDim S50000x128 ![0, 1] bcast_S50000x1_S50000x128_0_1 (normCol dst)))

/-- Matrix k of a stack of three. -/
def slab0 (X : Mats) : FVec Ideal S128x128 .f32 :=
  shapeCast S128x128 (extractStridedSlice S1x128x128 ![0, 0, 0] X slices_S3x128x128_S1x128x128_0_0_0) shapeCasts_S1x128x128_S128x128
def slab1 (X : Mats) : FVec Ideal S128x128 .f32 :=
  shapeCast S128x128 (extractStridedSlice S1x128x128 ![1, 0, 0] X slices_S3x128x128_S1x128x128_1_0_0) shapeCasts_S1x128x128_S128x128
def slab2 (X : Mats) : FVec Ideal S128x128 .f32 :=
  shapeCast S128x128 (extractStridedSlice S1x128x128 ![2, 0, 0] X slices_S3x128x128_S1x128x128_2_0_0) shapeCasts_S1x128x128_S128x128

/-- Row k of a stack of three, as a vector. -/
def vec0 (B : Rows) : FVec Ideal S128 .f32 :=
  shapeCast S128 (extractStridedSlice S1x128 ![0, 0] B slices_S3x128_S1x128_0_0) shapeCasts_S1x128_S128
def vec1 (B : Rows) : FVec Ideal S128 .f32 :=
  shapeCast S128 (extractStridedSlice S1x128 ![1, 0] B slices_S3x128_S1x128_1_0) shapeCasts_S1x128_S128
def vec2 (B : Rows) : FVec Ideal S128 .f32 :=
  shapeCast S128 (extractStridedSlice S1x128 ![2, 0] B slices_S3x128_S1x128_2_0) shapeCasts_S1x128_S128

/-- A vector as a [1, 128] row, by a reshape. -/
def asRowK (v : FVec Ideal S128 .f32) : FVec Ideal S1x128 .f32 :=
  shapeCast S1x128 v shapeCasts_S128_S1x128

/-- One stack: the first layer, propagated, through the second layer. -/
def stackOf (feats : Nodes) (src dst : Edges) (W0 : FVec Ideal S128x128 .f32)
    (b0 : FVec Ideal S1x128 .f32) (W : FVec Ideal S128x128 .f32)
    (bw : FVec Ideal S1x128 .f32) (V : FVec Ideal S128x128 .f32)
    (bv : FVec Ideal S1x128 .f32) : Nodes :=
  secondLayer (n := 50000) (propagate src dst (firstLayer (n := 50000) (agg0 feats src dst) feats (normCol dst) W0 b0 V bv))
    (normCol dst) (rowAffine (n := 50000) feats V bv) W bw

/-- The three stacks summed from zero. -/
def stackSum (s0 s1 s2 : Nodes) : Nodes := addf (F := Ideal) (addf (F := Ideal) (addf (F := Ideal) zeros s0) s1) s2

/-- The sum over three. -/
def third (s : Nodes) : Nodes :=
  Host.divf (F := Ideal) s (broadcastInDim S50000x128 ![] bcast_S_S50000x128 (constant (F := Ideal) S_ .f32 0x40400000#32))

/-- The whole model. -/
def model (feats : Nodes) (src dst : Edges) (W0 : Mats) (B0 : Rows) (W : Mats) (Bw : Rows) (Vv : Mats) (Bv : Rows) : Nodes :=
  third (stackSum
    (stackOf feats src dst (slab0 W0) (asRowK (vec0 B0)) (slab0 W) (asRowK (vec0 Bw)) (slab0 Vv) (asRowK (vec0 Bv)))
    (stackOf feats src dst (slab1 W0) (asRowK (vec1 B0)) (slab1 W) (asRowK (vec1 Bw)) (slab1 Vv) (asRowK (vec1 Bv)))
    (stackOf feats src dst (slab2 W0) (asRowK (vec2 B0)) (slab2 W) (asRowK (vec2 Bw)) (slab2 Vv) (asRowK (vec2 Bv))))

end Cert.KernelIdeal.Whole

end
-- ==== Proof.Chain3.lean ====
/-
  The buffers the first launch and the later segments read, at the first launch's entry.

  Before the first launch the host computes, from the argument arrays alone: every node's degree (a scatter-add of ones at
  the destinations), its clip at one, the scale column, the propagated scaled features, the zero array the stacks' sum
  starts from, and the first stack's six weight matrices and bias rows. Each buffer's contents at that boundary is the
  operations' term of the launch memory; the argument arrays are untouched.
-/
import proofs.«101264_j58145267253837_2_alg».proof.Proof.Gen.KernelIdeal.Frame
import proofs.«101264_j58145267253837_2_alg».proof.Proof.KernelModel

set_option maxRecDepth 16384

noncomputable section

namespace Cert.KernelIdeal.Whole

open Cert.KernelIdeal Cert.KernelIdeal.Gen Cert.Arma
open Idealize.ShloMosaic Idealize.ShloMosaic.TcCoe Idealize.SL.Sem

variable (m : (ℓ : Loc nD τ sig) → Buf (Elt Ideal) ℓ) (ρ : Dev nD → PrngReg) (c : Dev nD)

/-- A buffer no operation of a host stretch writes holds after it what it held before. -/
macro "host_keep" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem at1_arg0 : W1 m ρ c (Proc.devRef .tc main_arg0) = (m ((c : Thread nD τ).loc main_arg0)) :=
  (show W1 m ρ c (Proc.devRef .tc main_arg0) = W0 m ρ c (Proc.devRef .tc main_arg0) by host_keep hostOps0).trans rfl

theorem at1_arg1 : W1 m ρ c (Proc.devRef .tc main_arg1) = (m ((c : Thread nD τ).loc main_arg1)) :=
  (show W1 m ρ c (Proc.devRef .tc main_arg1) = W0 m ρ c (Proc.devRef .tc main_arg1) by host_keep hostOps0).trans rfl

theorem at1_arg2 : W1 m ρ c (Proc.devRef .tc main_arg2) = (m ((c : Thread nD τ).loc main_arg2)) :=
  (show W1 m ρ c (Proc.devRef .tc main_arg2) = W0 m ρ c (Proc.devRef .tc main_arg2) by host_keep hostOps0).trans rfl

theorem at1_arg3 : W1 m ρ c (Proc.devRef .tc main_arg3) = (m ((c : Thread nD τ).loc main_arg3)) :=
  (show W1 m ρ c (Proc.devRef .tc main_arg3) = W0 m ρ c (Proc.devRef .tc main_arg3) by host_keep hostOps0).trans rfl

theorem at1_arg4 : W1 m ρ c (Proc.devRef .tc main_arg4) = (m ((c : Thread nD τ).loc main_arg4)) :=
  (show W1 m ρ c (Proc.devRef .tc main_arg4) = W0 m ρ c (Proc.devRef .tc main_arg4) by host_keep hostOps0).trans rfl

theorem at1_arg5 : W1 m ρ c (Proc.devRef .tc main_arg5) = (m ((c : Thread nD τ).loc main_arg5)) :=
  (show W1 m ρ c (Proc.devRef .tc main_arg5) = W0 m ρ c (Proc.devRef .tc main_arg5) by host_keep hostOps0).trans rfl

theorem at1_arg6 : W1 m ρ c (Proc.devRef .tc main_arg6) = (m ((c : Thread nD τ).loc main_arg6)) :=
  (show W1 m ρ c (Proc.devRef .tc main_arg6) = W0 m ρ c (Proc.devRef .tc main_arg6) by host_keep hostOps0).trans rfl

theorem at1_arg7 : W1 m ρ c (Proc.devRef .tc main_arg7) = (m ((c : Thread nD τ).loc main_arg7)) :=
  (show W1 m ρ c (Proc.devRef .tc main_arg7) = W0 m ρ c (Proc.devRef .tc main_arg7) by host_keep hostOps0).trans rfl

theorem at1_arg8 : W1 m ρ c (Proc.devRef .tc main_arg8) = (m ((c : Thread nD τ).loc main_arg8)) :=
  (show W1 m ρ c (Proc.devRef .tc main_arg8) = W0 m ρ c (Proc.devRef .tc main_arg8) by host_keep hostOps0).trans rfl

set_option maxHeartbeats 4000000 in
theorem at1_v3 : W1 m ρ c (Proc.devRef .tc main_v3) = (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (m ((c : Thread nD τ).loc main_arg2))) (broadcastInDim S800000 ![] bcast_S_S800000 (constant (F := Ideal) S_ .f32 0x3F800000#32))) := by
  show StableHlo.after hostOps0 (W0 m ρ c) (Proc.devRef .tc main_v3) = _
  after_results_simp <;> rfl

set_option maxHeartbeats 4000000 in
theorem at1_cst_1 : W1 m ρ c (Proc.devRef .tc main_cst_1) = (constant (F := Ideal) S_ .f32 0x3F800000#32) := by
  show StableHlo.after hostOps0 (W0 m ρ c) (Proc.devRef .tc main_cst_1) = _
  after_results_simp <;> rfl

theorem at2_arg0 : W2 m ρ c (Proc.devRef .tc main_arg0) = (m ((c : Thread nD τ).loc main_arg0)) :=
  (show W2 m ρ c (Proc.devRef .tc main_arg0) = W1 m ρ c (Proc.devRef .tc main_arg0) by host_keep hostOps0_1).trans (at1_arg0 m ρ c)

theorem at2_arg1 : W2 m ρ c (Proc.devRef .tc main_arg1) = (m ((c : Thread nD τ).loc main_arg1)) :=
  (show W2 m ρ c (Proc.devRef .tc main_arg1) = W1 m ρ c (Proc.devRef .tc main_arg1) by host_keep hostOps0_1).trans (at1_arg1 m ρ c)

theorem at2_arg2 : W2 m ρ c (Proc.devRef .tc main_arg2) = (m ((c : Thread nD τ).loc main_arg2)) :=
  (show W2 m ρ c (Proc.devRef .tc main_arg2) = W1 m ρ c (Proc.devRef .tc main_arg2) by host_keep hostOps0_1).trans (at1_arg2 m ρ c)

theorem at2_arg3 : W2 m ρ c (Proc.devRef .tc main_arg3) = (m ((c : Thread nD τ).loc main_arg3)) :=
  (show W2 m ρ c (Proc.devRef .tc main_arg3) = W1 m ρ c (Proc.devRef .tc main_arg3) by host_keep hostOps0_1).trans (at1_arg3 m ρ c)

theorem at2_arg4 : W2 m ρ c (Proc.devRef .tc main_arg4) = (m ((c : Thread nD τ).loc main_arg4)) :=
  (show W2 m ρ c (Proc.devRef .tc main_arg4) = W1 m ρ c (Proc.devRef .tc main_arg4) by host_keep hostOps0_1).trans (at1_arg4 m ρ c)

theorem at2_arg5 : W2 m ρ c (Proc.devRef .tc main_arg5) = (m ((c : Thread nD τ).loc main_arg5)) :=
  (show W2 m ρ c (Proc.devRef .tc main_arg5) = W1 m ρ c (Proc.devRef .tc main_arg5) by host_keep hostOps0_1).trans (at1_arg5 m ρ c)

theorem at2_arg6 : W2 m ρ c (Proc.devRef .tc main_arg6) = (m ((c : Thread nD τ).loc main_arg6)) :=
  (show W2 m ρ c (Proc.devRef .tc main_arg6) = W1 m ρ c (Proc.devRef .tc main_arg6) by host_keep hostOps0_1).trans (at1_arg6 m ρ c)

theorem at2_arg7 : W2 m ρ c (Proc.devRef .tc main_arg7) = (m ((c : Thread nD τ).loc main_arg7)) :=
  (show W2 m ρ c (Proc.devRef .tc main_arg7) = W1 m ρ c (Proc.devRef .tc main_arg7) by host_keep hostOps0_1).trans (at1_arg7 m ρ c)

theorem at2_arg8 : W2 m ρ c (Proc.devRef .tc main_arg8) = (m ((c : Thread nD τ).loc main_arg8)) :=
  (show W2 m ρ c (Proc.devRef .tc main_arg8) = W1 m ρ c (Proc.devRef .tc main_arg8) by host_keep hostOps0_1).trans (at1_arg8 m ρ c)

set_option maxHeartbeats 4000000 in
theorem at2_v4 : W2 m ρ c (Proc.devRef .tc main_v4) = (maximumf (F := Ideal) (broadcastInDim S50000 ![] bcast_S_S50000 (id (constant (F := Ideal) S_ .f32 0x3F800000#32))) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (m ((c : Thread nD τ).loc main_arg2))) (broadcastInDim S800000 ![] bcast_S_S800000 (constant (F := Ideal) S_ .f32 0x3F800000#32)))) := by
  have h : W2 m ρ c (Proc.devRef .tc main_v4) = (maximumf (F := Ideal) (φ := .f32) (broadcastInDim S50000 ![] bcast_S_S50000 (id ((W1 m ρ c (Proc.devRef .tc main_cst_1)) : FVec Ideal S_ .f32))) ((W1 m ρ c (Proc.devRef .tc main_v3)) : FVec Ideal S50000 .f32)) := by
    show StableHlo.after hostOps0_1 (W1 m ρ c) (Proc.devRef .tc main_v4) = _
    generalize W1 m ρ c = Vp
    after_results_simp <;> rfl
  rw [h, at1_cst_1, at1_v3]

theorem at3_arg0 : W3 m ρ c (Proc.devRef .tc main_arg0) = (m ((c : Thread nD τ).loc main_arg0)) :=
  (show W3 m ρ c (Proc.devRef .tc main_arg0) = W2 m ρ c (Proc.devRef .tc main_arg0) by host_keep hostOps0_2).trans (at2_arg0 m ρ c)

theorem at3_arg1 : W3 m ρ c (Proc.devRef .tc main_arg1) = (m ((c : Thread nD τ).loc main_arg1)) :=
  (show W3 m ρ c (Proc.devRef .tc main_arg1) = W2 m ρ c (Proc.devRef .tc main_arg1) by host_keep hostOps0_2).trans (at2_arg1 m ρ c)

theorem at3_arg2 : W3 m ρ c (Proc.devRef .tc main_arg2) = (m ((c : Thread nD τ).loc main_arg2)) :=
  (show W3 m ρ c (Proc.devRef .tc main_arg2) = W2 m ρ c (Proc.devRef .tc main_arg2) by host_keep hostOps0_2).trans (at2_arg2 m ρ c)

theorem at3_arg3 : W3 m ρ c (Proc.devRef .tc main_arg3) = (m ((c : Thread nD τ).loc main_arg3)) :=
  (show W3 m ρ c (Proc.devRef .tc main_arg3) = W2 m ρ c (Proc.devRef .tc main_arg3) by host_keep hostOps0_2).trans (at2_arg3 m ρ c)

theorem at3_arg4 : W3 m ρ c (Proc.devRef .tc main_arg4) = (m ((c : Thread nD τ).loc main_arg4)) :=
  (show W3 m ρ c (Proc.devRef .tc main_arg4) = W2 m ρ c (Proc.devRef .tc main_arg4) by host_keep hostOps0_2).trans (at2_arg4 m ρ c)

theorem at3_arg5 : W3 m ρ c (Proc.devRef .tc main_arg5) = (m ((c : Thread nD τ).loc main_arg5)) :=
  (show W3 m ρ c (Proc.devRef .tc main_arg5) = W2 m ρ c (Proc.devRef .tc main_arg5) by host_keep hostOps0_2).trans (at2_arg5 m ρ c)

theorem at3_arg6 : W3 m ρ c (Proc.devRef .tc main_arg6) = (m ((c : Thread nD τ).loc main_arg6)) :=
  (show W3 m ρ c (Proc.devRef .tc main_arg6) = W2 m ρ c (Proc.devRef .tc main_arg6) by host_keep hostOps0_2).trans (at2_arg6 m ρ c)

theorem at3_arg7 : W3 m ρ c (Proc.devRef .tc main_arg7) = (m ((c : Thread nD τ).loc main_arg7)) :=
  (show W3 m ρ c (Proc.devRef .tc main_arg7) = W2 m ρ c (Proc.devRef .tc main_arg7) by host_keep hostOps0_2).trans (at2_arg7 m ρ c)

theorem at3_arg8 : W3 m ρ c (Proc.devRef .tc main_arg8) = (m ((c : Thread nD τ).loc main_arg8)) :=
  (show W3 m ρ c (Proc.devRef .tc main_arg8) = W2 m ρ c (Proc.devRef .tc main_arg8) by host_keep hostOps0_2).trans (at2_arg8 m ρ c)

set_option maxHeartbeats 4000000 in
theorem at3_v7 : W3 m ρ c (Proc.devRef .tc main_v7) = (normCol (m ((c : Thread nD τ).loc main_arg2))) := by
  have h : W3 m ρ c (Proc.devRef .tc main_v7) = (broadcastInDim S50000x1 ![0] bcast_S50000_S50000x1_0 (Host.powf (F := Ideal) (W2 m ρ c (Proc.devRef .tc main_v4)) (broadcastInDim S50000 ![] bcast_S_S50000 (constant (F := Ideal) S_ .f32 0xBF000000#32)))) := by
    show StableHlo.after hostOps0_2 (W2 m ρ c) (Proc.devRef .tc main_v7) = _
    generalize W2 m ρ c = Vp
    after_results_simp <;> rfl
  rw [h, at2_v4]
  rfl

set_option maxHeartbeats 4000000 in
theorem at3_v19 : W3 m ρ c (Proc.devRef .tc main_v19) = (agg0 (m ((c : Thread nD τ).loc main_arg0)) (m ((c : Thread nD τ).loc main_arg1)) (m ((c : Thread nD τ).loc main_arg2))) := by
  have h : W3 m ρ c (Proc.devRef .tc main_v19) = (propagate (W2 m ρ c (Proc.devRef .tc main_arg1)) (W2 m ρ c (Proc.devRef .tc main_arg2)) (mulf (F := Ideal) (W2 m ρ c (Proc.devRef .tc main_arg0)) (broadcastInDim S50000x128 ![0, 1] bcast_S50000x1_S50000x128_0_1 (broadcastInDim S50000x1 ![0] bcast_S50000_S50000x1_0 (Host.powf (F := Ideal) (W2 m ρ c (Proc.devRef .tc main_v4)) (broadcastInDim S50000 ![] bcast_S_S50000 (constant (F := Ideal) S_ .f32 0xBF000000#32))))))) := by
    show StableHlo.after hostOps0_2 (W2 m ρ c) (Proc.devRef .tc main_v19) = _
    generalize W2 m ρ c = Vp
    after_results_simp <;> rfl
  rw [h, at2_arg1, at2_arg2, at2_arg0, at2_v4]
  rfl

set_option maxHeartbeats 4000000 in
theorem at3_v20 : W3 m ρ c (Proc.devRef .tc main_v20) = zeros := by
  have h : W3 m ρ c (Proc.devRef .tc main_v20) = zeros := by
    show StableHlo.after hostOps0_2 (W2 m ρ c) (Proc.devRef .tc main_v20) = _
    generalize W2 m ρ c = Vp
    after_results_simp <;> rfl
  rw [h]

set_option maxHeartbeats 4000000 in
theorem at3_v22 : W3 m ρ c (Proc.devRef .tc main_v22) = (slab0 (m ((c : Thread nD τ).loc main_arg3))) := by
  have h : W3 m ρ c (Proc.devRef .tc main_v22) = (slab0 (W2 m ρ c (Proc.devRef .tc main_arg3))) := by
    show StableHlo.after hostOps0_2 (W2 m ρ c) (Proc.devRef .tc main_v22) = _
    generalize W2 m ρ c = Vp
    after_results_simp <;> rfl
  rw [h, at2_arg3]

set_option maxHeartbeats 4000000 in
theorem at3_v25 : W3 m ρ c (Proc.devRef .tc main_v25) = (asRowK (vec0 (m ((c : Thread nD τ).loc main_arg4)))) := by
  have h : W3 m ρ c (Proc.devRef .tc main_v25) = (asRowK (vec0 (W2 m ρ c (Proc.devRef .tc main_arg4)))) := by
    show StableHlo.after hostOps0_2 (W2 m ρ c) (Proc.devRef .tc main_v25) = _
    generalize W2 m ρ c = Vp
    after_results_simp <;> rfl
  rw [h, at2_arg4]

set_option maxHeartbeats 4000000 in
theorem at3_v27 : W3 m ρ c (Proc.devRef .tc main_v27) = (slab0 (m ((c : Thread nD τ).loc main_arg7))) := by
  have h : W3 m ρ c (Proc.devRef .tc main_v27) = (slab0 (W2 m ρ c (Proc.devRef .tc main_arg7))) := by
    show StableHlo.after hostOps0_2 (W2 m ρ c) (Proc.devRef .tc main_v27) = _
    generalize W2 m ρ c = Vp
    after_results_simp <;> rfl
  rw [h, at2_arg7]

set_option maxHeartbeats 4000000 in
theorem at3_v30 : W3 m ρ c (Proc.devRef .tc main_v30) = (asRowK (vec0 (m ((c : Thread nD τ).loc main_arg8)))) := by
  have h : W3 m ρ c (Proc.devRef .tc main_v30) = (asRowK (vec0 (W2 m ρ c (Proc.devRef .tc main_arg8)))) := by
    show StableHlo.after hostOps0_2 (W2 m ρ c) (Proc.devRef .tc main_v30) = _
    generalize W2 m ρ c = Vp
    after_results_simp <;> rfl
  rw [h, at2_arg8]

set_option maxHeartbeats 4000000 in
theorem at3_v32 : W3 m ρ c (Proc.devRef .tc main_v32) = (slab0 (m ((c : Thread nD τ).loc main_arg5))) := by
  have h : W3 m ρ c (Proc.devRef .tc main_v32) = (slab0 (W2 m ρ c (Proc.devRef .tc main_arg5))) := by
    show StableHlo.after hostOps0_2 (W2 m ρ c) (Proc.devRef .tc main_v32) = _
    generalize W2 m ρ c = Vp
    after_results_simp <;> rfl
  rw [h, at2_arg5]

set_option maxHeartbeats 4000000 in
theorem at3_v35 : W3 m ρ c (Proc.devRef .tc main_v35) = (asRowK (vec0 (m ((c : Thread nD τ).loc main_arg6)))) := by
  have h : W3 m ρ c (Proc.devRef .tc main_v35) = (asRowK (vec0 (W2 m ρ c (Proc.devRef .tc main_arg6)))) := by
    show StableHlo.after hostOps0_2 (W2 m ρ c) (Proc.devRef .tc main_v35) = _
    generalize W2 m ρ c = Vp
    after_results_simp <;> rfl
  rw [h, at2_arg6]

end Cert.KernelIdeal.Whole

end
-- ==== Proof.Blocks0.lean ====
/-
  Launch 0 (the first layer of one stack, ten blocks of 5000 rows): what its two output arrays hold afterwards.

  Block t of each row-tiled operand is rows 5000·t … 5000·t + 4999 of its array; the weights and bias rows are read whole at
  every point. The body's two stores are the residual X·V + bv and the first layer of the block's rows, so — every row of
  the two outputs lying in exactly the block that 5000 divides it into — the arrays end at those functions of the whole
  operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The residual store is the linear layer of the block. -/
theorem resid_store0 (x1 : Vec Ideal S5000x128 .f32) (x5 : Vec Ideal S128x128 .f32) (x6 : Vec Ideal S1x128 .f32) :
    k0_pay1 (F := Ideal) x1 x5 x6 = rowAffine x1 x5 x6 := by
  unfold k0_pay1
  exact kernel_rowAffine dot_S5000x128_S128x128_S5000x128_1_0_0_1_n_n.wf bitsLt_bf16_f32 x1 x5 x6 _ _ _

/-- The second store is the first layer of the block. -/
theorem first_store0 (x2 : Vec Ideal S5000x1 .f32) (x0 x1 : Vec Ideal S5000x128 .f32) (x3 x5 : Vec Ideal S128x128 .f32)
    (x4 x6 : Vec Ideal S1x128 .f32) :
    k0_pay2 (F := Ideal) x2 x0 x1 x3 x5 x4 x6 = firstLayer x0 x1 x2 x3 x4 x5 x6 := by
  unfold k0_pay2 k0_pay1
  exact kernel_firstLayer dot_S5000x128_S128x128_S5000x128_1_0_0_1_n_n.wf bitsLt_bf16_f32 x2 x0 x1 x3 x5 x4 x6 _ _ _ _ _ _ _

/-- The index maps over the grid: the row-tiled windows are at block (t, 0), the others at (0, 0). -/
theorem blocks_at0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 ∧ t.val < 10 :=
  (by decide +kernel : ∀ t : Fin grid0.N, _)

/-- A whole-array window's block is its array. -/
theorem whole0_3 (c : Dev nD) (t : Fin cfg0.N) : iblk0 V c 3 t = V c (Pipeline.arrRef spec0 3) := by
  obtain ⟨-, -, -, -, -, -, e0, e1, -⟩ := blocks_at0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem whole0_4 (c : Dev nD) (t : Fin cfg0.N) : iblk0 V c 4 t = V c (Pipeline.arrRef spec0 4) := by
  obtain ⟨-, -, -, -, -, -, -, -, e0, e1, -⟩ := blocks_at0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
theorem whole0_5 (c : Dev nD) (t : Fin cfg0.N) : iblk0 V c 5 t = V c (Pipeline.arrRef spec0 5) := by
  obtain ⟨-, -, -, -, -, -, -, -, -, -, e0, e1, -⟩ := blocks_at0 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem whole0_6 (c : Dev nD) (t : Fin cfg0.N) : iblk0 V c 6 t = V c (Pipeline.arrRef spec0 6) := by
  obtain ⟨-, -, -, -, -, -, -, -, -, -, -, -, e0, e1, -⟩ := blocks_at0 t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row p of block t of a row-tiled window is row 5000·t + p of its array. -/
theorem rows0_0 (c : Dev nD) (t : Fin cfg0.N) (p : Fin 5000) (k : Fin 128) (h : t.val * 5000 + p.val < 50000) :
    iblk0 V c 0 t (ix2 p k) = V c (Pipeline.arrRef spec0 0) (ix2 (⟨t.val * 5000 + p.val, h⟩ : Fin 50000) k) := by
  obtain ⟨e0, e1, -⟩ := blocks_at0 t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega
theorem rows0_1 (c : Dev nD) (t : Fin cfg0.N) (p : Fin 5000) (k : Fin 128) (h : t.val * 5000 + p.val < 50000) :
    iblk0 V c 1 t (ix2 p k) = V c (Pipeline.arrRef spec0 1) (ix2 (⟨t.val * 5000 + p.val, h⟩ : Fin 50000) k) := by
  obtain ⟨-, -, e0, e1, -⟩ := blocks_at0 t
  show V c (Pipeline.arrRef spec0 1) (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega
theorem rows0_2 (c : Dev nD) (t : Fin cfg0.N) (p : Fin 5000) (h : t.val * 5000 + p.val < 50000) :
    iblk0 V c 2 t (ix2 p (0 : Fin 1)) = V c (Pipeline.arrRef spec0 2) (ix2 (⟨t.val * 5000 + p.val, h⟩ : Fin 50000) (0 : Fin 1)) := by
  obtain ⟨-, -, -, -, e0, e1, -⟩ := blocks_at0 t
  show V c (Pipeline.arrRef spec0 2) (((cfg0.win 2).blk t).view.emb (ix2 p (0 : Fin 1))) = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

set_option maxHeartbeats 4000000 in
/-- What point t writes back to output 7 is block t of the residual of the whole arrays. -/
theorem flushed0_7 (c : Dev nD) (t : Fin cfg0.N) :
    (dat0 V c).flushed 7 t = ((cfg0.win 7).blk t).view.read (Elt Ideal)
      (rowAffine (n := 50000) (V c (Pipeline.arrRef spec0 1)) (V c (Pipeline.arrRef spec0 5)) (V c (Pipeline.arrRef spec0 6))) := by
  show (cfg0.win 7).cut (grid0.coords t) ((dat0 V c).after 7 t) = _
  rw [after0_7]
  unfold out0_7
  rw [View.canon_unit_zero origin0]
  simp only [View.ld_unit_zero (S := S5000x128) origin0, View.ld_unit_zero (S := S128x128) origin0, View.ld_unit_zero (S := S1x128) origin0]
  rw [resid_store0, whole0_5, whole0_6]
  obtain ⟨-, -, -, -, -, -, -, -, -, -, -, -, -, -, e0, e1, -, -, ht⟩ := blocks_at0 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg0.win 7).blk t).view.emb (ix2 p q) = ix2 (⟨t.val * 5000 + p.val, hp⟩ : Fin 50000) q :=
    funext fun a => Fin.ext (by
      match a with
      | ⟨0, _⟩ => show win0_7.index t (0 : Fin 2) * 5000 + 1 * p.val = t.val * 5000 + p.val; omega
      | ⟨1, _⟩ => show win0_7.index t (1 : Fin 2) * 128 + 1 * q.val = q.val; omega)
  show rowAffine (iblk0 V c 1 t) (V c (Pipeline.arrRef spec0 5)) (V c (Pipeline.arrRef spec0 6)) (ix2 p q)
      = rowAffine (n := 50000) (V c (Pipeline.arrRef spec0 1)) (V c (Pipeline.arrRef spec0 5)) (V c (Pipeline.arrRef spec0 6))
          (((cfg0.win 7).blk t).view.emb (ix2 p q))
  rw [he]
  exact rowAffine_rows _ _ _ _ p ⟨t.val * 5000 + p.val, hp⟩ (fun k => rows0_1 V c t p k hp) q

set_option maxHeartbeats 4000000 in
/-- What point t writes back to output 8 is block t of the first layer of the whole arrays. -/
theorem flushed0_8 (c : Dev nD) (t : Fin cfg0.N) :
    (dat0 V c).flushed 8 t = ((cfg0.win 8).blk t).view.read (Elt Ideal)
      (firstLayer (n := 50000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6))) := by
  show (cfg0.win 8).cut (grid0.coords t) ((dat0 V c).after 8 t) = _
  rw [after0_8]
  unfold out0_8
  rw [View.canon_unit_zero origin0]
  simp only [View.ld_unit_zero (S := S5000x128) origin0, View.ld_unit_zero (S := S5000x1) origin0,
    View.ld_unit_zero (S := S128x128) origin0, View.ld_unit_zero (S := S1x128) origin0]
  rw [first_store0, whole0_3, whole0_4, whole0_5, whole0_6]
  obtain ⟨-, -, -, -, -, -, -, -, -, -, -, -, -, -, -, -, e0, e1, ht⟩ := blocks_at0 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg0.win 8).blk t).view.emb (ix2 p q) = ix2 (⟨t.val * 5000 + p.val, hp⟩ : Fin 50000) q :=
    funext fun a => Fin.ext (by
      match a with
      | ⟨0, _⟩ => show win0_8.index t (0 : Fin 2) * 5000 + 1 * p.val = t.val * 5000 + p.val; omega
      | ⟨1, _⟩ => show win0_8.index t (1 : Fin 2) * 128 + 1 * q.val = q.val; omega)
  show firstLayer (iblk0 V c 0 t) (iblk0 V c 1 t) (iblk0 V c 2 t) (V c (Pipeline.arrRef spec0 3)) (V c (Pipeline.arrRef spec0 4))
        (V c (Pipeline.arrRef spec0 5)) (V c (Pipeline.arrRef spec0 6)) (ix2 p q)
      = firstLayer (n := 50000) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6))
          (((cfg0.win 8).blk t).view.emb (ix2 p q))
  rw [he]
  exact firstLayer_rows _ _ _ _ _ _ _ _ _ _ p ⟨t.val * 5000 + p.val, hp⟩ (fun k => rows0_0 V c t p k hp)
    (fun k => rows0_1 V c t p k hp) (rows0_2 V c t p hp) q

/-- An index of output w's array is in point t's block iff each coordinate is in the block's range. -/
theorem mem_block0_7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole (Pipeline.arrRef spec0 7)).slice (win0_7.rect t)).set ↔ _
  rw [View.set_slice_whole, Rect.mem_set_unit]
  exact Iff.rfl
theorem mem_block0_8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole (Pipeline.arrRef spec0 8)).slice (win0_8.rect t)).set ↔ _
  rw [View.set_slice_whole, Rect.mem_set_unit]
  exact Iff.rfl

/-- Every row lies in the block that 5000 divides it into. -/
theorem covered0_7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, -, -, e0, e1, -⟩ := blocks_at0 t
  have ht : t.val = (i 0).val / 5000 := rfl
  refine ⟨t, flush0_7 t, ?_⟩
  rw [mem_block0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega
theorem covered0_8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, -, -, -, -, -, -, e0, e1, -⟩ := blocks_at0 t
  have ht : t.val = (i 0).val / 5000 := rfl
  refine ⟨t, flush0_8 t, ?_⟩
  rw [mem_block0_8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

set_option maxHeartbeats 4000000 in
/-- After the launch output 7 is the residual X·V + bv of the operand arrays as the launch found them, -/
theorem resid_array0 (c : Dev nD) : (dat0 V c).arrAt 7 cfg0.N
    = rowAffine (n := 50000) (V c (Pipeline.arrRef spec0 1)) (V c (Pipeline.arrRef spec0 5)) (V c (Pipeline.arrRef spec0 6)) :=
  (dat0 V c).arrAt_eq_of_cover 7 _ (fun t _ => flushed0_7 V c t) covered0_7

set_option maxHeartbeats 4000000 in
/-- and output 8 their first layer. -/
theorem first_array0 (c : Dev nD) : (dat0 V c).arrAt 8 cfg0.N
    = firstLayer (n := 50000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)) :=
  (dat0 V c).arrAt_eq_of_cover 8 _ (fun t _ => flushed0_8 V c t) covered0_8

end Cert.KernelIdeal.Whole

end
-- ==== Proof.Blocks1.lean ====
/-
  Launch 1 (the second layer of one stack, ten blocks of 5000 rows): what its output array holds afterwards.

  Block t of each row-tiled operand — the aggregated rows, the scale column, the residual — is rows 5000·t … 5000·t + 4999 of
  its array; the weights and the bias row are read whole at every point. The body's store is the second layer of the
  block's rows, so the output array ends at the second layer of the whole operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- The store is the second layer of the block. -/
theorem second_store1 (x1 : Vec Ideal S5000x1 .f32) (x0 : Vec Ideal S5000x128 .f32) (x3 : Vec Ideal S128x128 .f32)
    (x4 : Vec Ideal S1x128 .f32) (x2 : Vec Ideal S5000x128 .f32) :
    k1_pay1 (F := Ideal) x1 x0 x3 x4 x2 = secondLayer x0 x1 x2 x3 x4 := by
  unfold k1_pay1
  exact kernel_secondLayer dot_S5000x128_S128x128_S5000x128_1_0_0_1_n_n.wf bitsLt_bf16_f32 x1 x0 x2 x3 x4 _ _ _ _ _ _ _

/-- The index maps over the grid: the row-tiled windows are at block (t, 0), the others at (0, 0). -/
theorem blocks_at1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- A whole-array window's block is its array. -/
theorem whole1_3 (c : Dev nD) (t : Fin cfg1.N) : iblk1 V c 3 t = V c (Pipeline.arrRef spec1 3) := by
  obtain ⟨-, -, -, -, -, -, e0, e1, -⟩ := blocks_at1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem whole1_4 (c : Dev nD) (t : Fin cfg1.N) : iblk1 V c 4 t = V c (Pipeline.arrRef spec1 4) := by
  obtain ⟨-, -, -, -, -, -, -, -, e0, e1, -⟩ := blocks_at1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row p of block t of a row-tiled window is row 5000·t + p of its array. -/
theorem rows1_0 (c : Dev nD) (t : Fin cfg1.N) (p : Fin 5000) (k : Fin 128) (h : t.val * 5000 + p.val < 50000) :
    iblk1 V c 0 t (ix2 p k) = V c (Pipeline.arrRef spec1 0) (ix2 (⟨t.val * 5000 + p.val, h⟩ : Fin 50000) k) := by
  obtain ⟨e0, e1, -⟩ := blocks_at1 t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega
theorem rows1_1 (c : Dev nD) (t : Fin cfg1.N) (p : Fin 5000) (h : t.val * 5000 + p.val < 50000) :
    iblk1 V c 1 t (ix2 p (0 : Fin 1)) = V c (Pipeline.arrRef spec1 1) (ix2 (⟨t.val * 5000 + p.val, h⟩ : Fin 50000) (0 : Fin 1)) := by
  obtain ⟨-, -, e0, e1, -⟩ := blocks_at1 t
  show V c (Pipeline.arrRef spec1 1) (((cfg1.win 1).blk t).view.emb (ix2 p (0 : Fin 1))) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega
theorem rows1_2 (c : Dev nD) (t : Fin cfg1.N) (p : Fin 5000) (k : Fin 128) (h : t.val * 5000 + p.val < 50000) :
    iblk1 V c 2 t (ix2 p k) = V c (Pipeline.arrRef spec1 2) (ix2 (⟨t.val * 5000 + p.val, h⟩ : Fin 50000) k) := by
  obtain ⟨-, -, -, -, e0, e1, -⟩ := blocks_at1 t
  show V c (Pipeline.arrRef spec1 2) (((cfg1.win 2).blk t).view.emb (ix2 p k)) = _
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

set_option maxHeartbeats 4000000 in
/-- What point t writes back is block t of the second layer of the whole arrays. -/
theorem flushed1_5 (c : Dev nD) (t : Fin cfg1.N) :
    (dat1 V c).flushed 5 t = ((cfg1.win 5).blk t).view.read (Elt Ideal)
      (secondLayer (n := 50000) (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero origin1]
  simp only [View.ld_unit_zero (S := S5000x128) origin1, View.ld_unit_zero (S := S5000x1) origin1,
    View.ld_unit_zero (S := S128x128) origin1, View.ld_unit_zero (S := S1x128) origin1]
  rw [second_store1, whole1_3, whole1_4]
  obtain ⟨-, -, -, -, -, -, -, -, -, -, e0, e1, ht⟩ := blocks_at1 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg1.win 5).blk t).view.emb (ix2 p q) = ix2 (⟨t.val * 5000 + p.val, hp⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  show secondLayer (iblk1 V c 0 t) (iblk1 V c 1 t) (iblk1 V c 2 t) (V c (Pipeline.arrRef spec1 3)) (V c (Pipeline.arrRef spec1 4)) (ix2 p q)
      = secondLayer (n := 50000) (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb (ix2 p q))
  rw [he]
  exact secondLayer_rows _ _ _ _ _ _ _ _ p ⟨t.val * 5000 + p.val, hp⟩ (fun k => rows1_0 V c t p k hp)
    (rows1_1 V c t p hp) q (rows1_2 V c t p q hp)

/-- An index of the output's array is in point t's block iff each coordinate is in the block's range. -/
theorem mem_block1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every row lies in the block that 5000 divides it into. -/
theorem covered1_5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e0, e1, -⟩ := blocks_at1 t
  have ht : t.val = (i 0).val / 5000 := rfl
  refine ⟨t, flush1_5 t, ?_⟩
  rw [mem_block1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

set_option maxHeartbeats 4000000 in
/-- After the launch the output is the second layer of the operand arrays as the launch found them. -/
theorem second_array1 (c : Dev nD) : (dat1 V c).arrAt 5 cfg1.N
    = secondLayer (n := 50000) (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed1_5 V c t) covered1_5

end Cert.KernelIdeal.Whole

end
-- ==== Proof.Chain4.lean ====
/-
  The first stack: the buffers later segments read, from the first launch's exit to the third launch's entry.

  The first launch leaves the residual and the scaled first layer; the host propagates the latter; the second launch leaves
  the stack's result, which the host adds to zero; the second stack's weights and bias rows are cut out of the arguments.
  Every other buffer is carried: a host stretch leaves what it does not write, a launch leaves everything but its outputs.
-/
import proofs.«101264_j58145267253837_2_alg».proof.Proof.Chain3
import proofs.«101264_j58145267253837_2_alg».proof.Proof.Blocks0
import proofs.«101264_j58145267253837_2_alg».proof.Proof.Blocks1

set_option maxRecDepth 16384

noncomputable section

namespace Cert.KernelIdeal.Whole

open Cert.KernelIdeal Cert.KernelIdeal.Gen Cert.Arma
open Idealize.ShloMosaic Idealize.ShloMosaic.TcCoe Idealize.SL.Sem

variable (m : (ℓ : Loc nD τ sig) → Buf (Elt Ideal) ℓ) (ρ : Dev nD → PrngReg) (c : Dev nD)

theorem at4_v7 : W4 m ρ c (Proc.devRef .tc main_v7) = (normCol (m ((c : Thread nD τ).loc main_arg2))) :=
  ((W4_arr m ρ c 2).trans (((dat0 (V3 m ρ) c).arrAt_in 2 rfl _).trans (A_eq0 (V3 m ρ) c 2))).trans (at3_v7 m ρ c)

theorem at4_v19 : W4 m ρ c (Proc.devRef .tc main_v19) = (agg0 (m ((c : Thread nD τ).loc main_arg0)) (m ((c : Thread nD τ).loc main_arg1)) (m ((c : Thread nD τ).loc main_arg2))) :=
  ((W4_arr m ρ c 0).trans (((dat0 (V3 m ρ) c).arrAt_in 0 rfl _).trans (A_eq0 (V3 m ρ) c 0))).trans (at3_v19 m ρ c)

theorem at4_v20 : W4 m ρ c (Proc.devRef .tc main_v20) = zeros :=
  (W4_of_ne m ρ c main_v20 (by decide)).trans (at3_v20 m ρ c)

theorem at4_v32 : W4 m ρ c (Proc.devRef .tc main_v32) = (slab0 (m ((c : Thread nD τ).loc main_arg5))) :=
  (W4_of_ne m ρ c main_v32 (by decide)).trans (at3_v32 m ρ c)

theorem at4_v35 : W4 m ρ c (Proc.devRef .tc main_v35) = (asRowK (vec0 (m ((c : Thread nD τ).loc main_arg6)))) :=
  (W4_of_ne m ρ c main_v35 (by decide)).trans (at3_v35 m ρ c)

set_option maxHeartbeats 4000000 in
theorem at4_v36_0 : W4 m ρ c (Proc.devRef .tc main_v36_0) = (rowAffine (n := 50000) (m ((c : Thread nD τ).loc main_arg0)) (slab0 (m ((c : Thread nD τ).loc main_arg7))) (asRowK (vec0 (m ((c : Thread nD τ).loc main_arg8))))) := by
  have e1 : V3 m ρ c (Pipeline.arrRef spec0 1) = (m ((c : Thread nD τ).loc main_arg0)) := at3_arg0 m ρ c
  have e5 : V3 m ρ c (Pipeline.arrRef spec0 5) = (slab0 (m ((c : Thread nD τ).loc main_arg7))) := at3_v27 m ρ c
  have e6 : V3 m ρ c (Pipeline.arrRef spec0 6) = (asRowK (vec0 (m ((c : Thread nD τ).loc main_arg8)))) := at3_v30 m ρ c
  have h := (W4_arr m ρ c 7).trans (resid_array0 (V3 m ρ) c)
  rw [e1, e5, e6] at h
  exact h

set_option maxHeartbeats 4000000 in
theorem at4_v36_1 : W4 m ρ c (Proc.devRef .tc main_v36_1) = (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab0 (m ((c : Thread nD τ).loc main_arg3))) (asRowK (vec0 (m ((c : Thread nD τ).loc main_arg4)))) (slab0 (m ((c : Thread nD τ).loc main_arg7))) (asRowK (vec0 (m ((c : Thread nD τ).loc main_arg8))))) := by
  have e0 : V3 m ρ c (Pipeline.arrRef spec0 0) = (agg0 (m ((c : Thread nD τ).loc main_arg0)) (m ((c : Thread nD τ).loc main_arg1)) (m ((c : Thread nD τ).loc main_arg2))) := at3_v19 m ρ c
  have e1 : V3 m ρ c (Pipeline.arrRef spec0 1) = (m ((c : Thread nD τ).loc main_arg0)) := at3_arg0 m ρ c
  have e2 : V3 m ρ c (Pipeline.arrRef spec0 2) = (normCol (m ((c : Thread nD τ).loc main_arg2))) := at3_v7 m ρ c
  have e3 : V3 m ρ c (Pipeline.arrRef spec0 3) = (slab0 (m ((c : Thread nD τ).loc main_arg3))) := at3_v22 m ρ c
  have e4 : V3 m ρ c (Pipeline.arrRef spec0 4) = (asRowK (vec0 (m ((c : Thread nD τ).loc main_arg4)))) := at3_v25 m ρ c
  have e5 : V3 m ρ c (Pipeline.arrRef spec0 5) = (slab0 (m ((c : Thread nD τ).loc main_arg7))) := at3_v27 m ρ c
  have e6 : V3 m ρ c (Pipeline.arrRef spec0 6) = (asRowK (vec0 (m ((c : Thread nD τ).loc main_arg8)))) := at3_v30 m ρ c
  have h := (W4_arr m ρ c 8).trans (first_array0 (V3 m ρ) c)
  rw [e0, e1, e2, e3, e4, e5, e6] at h
  exact h

theorem at4_arg0 : W4 m ρ c (Proc.devRef .tc main_arg0) = (m ((c : Thread nD τ).loc main_arg0)) :=
  ((W4_arr m ρ c 1).trans (((dat0 (V3 m ρ) c).arrAt_in 1 rfl _).trans (A_eq0 (V3 m ρ) c 1))).trans (at3_arg0 m ρ c)

theorem at4_arg1 : W4 m ρ c (Proc.devRef .tc main_arg1) = (m ((c : Thread nD τ).loc main_arg1)) :=
  (W4_of_ne m ρ c main_arg1 (by decide)).trans (at3_arg1 m ρ c)

theorem at4_arg2 : W4 m ρ c (Proc.devRef .tc main_arg2) = (m ((c : Thread nD τ).loc main_arg2)) :=
  (W4_of_ne m ρ c main_arg2 (by decide)).trans (at3_arg2 m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_arg7 : W4 m ρ c (Proc.devRef .tc main_arg7) = (m ((c : Thread nD τ).loc main_arg7)) :=
  (W4_of_ne m ρ c main_arg7 (by decide)).trans (at3_arg7 m ρ c)

theorem at4_arg8 : W4 m ρ c (Proc.devRef .tc main_arg8) = (m ((c : Thread nD τ).loc main_arg8)) :=
  (W4_of_ne m ρ c main_arg8 (by decide)).trans (at3_arg8 m ρ c)

theorem at5_v7 : W5 m ρ c (Proc.devRef .tc main_v7) = (normCol (m ((c : Thread nD τ).loc main_arg2))) :=
  (show W5 m ρ c (Proc.devRef .tc main_v7) = W4 m ρ c (Proc.devRef .tc main_v7) by host_keep hostOps1).trans (at4_v7 m ρ c)

theorem at5_v19 : W5 m ρ c (Proc.devRef .tc main_v19) = (agg0 (m ((c : Thread nD τ).loc main_arg0)) (m ((c : Thread nD τ).loc main_arg1)) (m ((c : Thread nD τ).loc main_arg2))) :=
  (show W5 m ρ c (Proc.devRef .tc main_v19) = W4 m ρ c (Proc.devRef .tc main_v19) by host_keep hostOps1).trans (at4_v19 m ρ c)

theorem at5_v20 : W5 m ρ c (Proc.devRef .tc main_v20) = zeros :=
  (show W5 m ρ c (Proc.devRef .tc main_v20) = W4 m ρ c (Proc.devRef .tc main_v20) by host_keep hostOps1).trans (at4_v20 m ρ c)

theorem at5_v32 : W5 m ρ c (Proc.devRef .tc main_v32) = (slab0 (m ((c : Thread nD τ).loc main_arg5))) :=
  (show W5 m ρ c (Proc.devRef .tc main_v32) = W4 m ρ c (Proc.devRef .tc main_v32) by host_keep hostOps1).trans (at4_v32 m ρ c)

theorem at5_v35 : W5 m ρ c (Proc.devRef .tc main_v35) = (asRowK (vec0 (m ((c : Thread nD τ).loc main_arg6)))) :=
  (show W5 m ρ c (Proc.devRef .tc main_v35) = W4 m ρ c (Proc.devRef .tc main_v35) by host_keep hostOps1).trans (at4_v35 m ρ c)

theorem at5_v36_0 : W5 m ρ c (Proc.devRef .tc main_v36_0) = (rowAffine (n := 50000) (m ((c : Thread nD τ).loc main_arg0)) (slab0 (m ((c : Thread nD τ).loc main_arg7))) (asRowK (vec0 (m ((c : Thread nD τ).loc main_arg8))))) :=
  (show W5 m ρ c (Proc.devRef .tc main_v36_0) = W4 m ρ c (Proc.devRef .tc main_v36_0) by host_keep hostOps1).trans (at4_v36_0 m ρ c)

set_option maxHeartbeats 4000000 in
theorem at5_v46 : W5 m ρ c (Proc.devRef .tc main_v46) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab0 (m ((c : Thread nD τ).loc main_arg3))) (asRowK (vec0 (m ((c : Thread nD τ).loc main_arg4)))) (slab0 (m ((c : Thread nD τ).loc main_arg7))) (asRowK (vec0 (m ((c : Thread nD τ).loc main_arg8)))))) := by
  have h : W5 m ρ c (Proc.devRef .tc main_v46) = propagate (W4 m ρ c (Proc.devRef .tc main_arg1)) (W4 m ρ c (Proc.devRef .tc main_arg2)) (W4 m ρ c (Proc.devRef .tc main_v36_1)) := by
    show StableHlo.after hostOps1 (W4 m ρ c) (Proc.devRef .tc main_v46) = _
    generalize W4 m ρ c = Vp
    after_results_simp <;> rfl
  rw [h, at4_arg1, at4_arg2, at4_v36_1]

theorem at5_arg0 : W5 m ρ c (Proc.devRef .tc main_arg0) = (m ((c : Thread nD τ).loc main_arg0)) :=
  (show W5 m ρ c (Proc.devRef .tc main_arg0) = W4 m ρ c (Proc.devRef .tc main_arg0) by host_keep hostOps1).trans (at4_arg0 m ρ c)

theorem at5_arg1 : W5 m ρ c (Proc.devRef .tc main_arg1) = (m ((c : Thread nD τ).loc main_arg1)) :=
  (show W5 m ρ c (Proc.devRef .tc main_arg1) = W4 m ρ c (Proc.devRef .tc main_arg1) by host_keep hostOps1).trans (at4_arg1 m ρ c)

theorem at5_arg2 : W5 m ρ c (Proc.devRef .tc main_arg2) = (m ((c : Thread nD τ).loc main_arg2)) :=
  (show W5 m ρ c (Proc.devRef .tc main_arg2) = W4 m ρ c (Proc.devRef .tc main_arg2) by host_keep hostOps1).trans (at4_arg2 m ρ c)

theorem at5_arg3 : W5 m ρ c (Proc.devRef .tc main_arg3) = (m ((c : Thread nD τ).loc main_arg3)) :=
  (show W5 m ρ c (Proc.devRef .tc main_arg3) = W4 m ρ c (Proc.devRef .tc main_arg3) by host_keep hostOps1).trans (at4_arg3 m ρ c)

theorem at5_arg4 : W5 m ρ c (Proc.devRef .tc main_arg4) = (m ((c : Thread nD τ).loc main_arg4)) :=
  (show W5 m ρ c (Proc.devRef .tc main_arg4) = W4 m ρ c (Proc.devRef .tc main_arg4) by host_keep hostOps1).trans (at4_arg4 m ρ c)

theorem at5_arg5 : W5 m ρ c (Proc.devRef .tc main_arg5) = (m ((c : Thread nD τ).loc main_arg5)) :=
  (show W5 m ρ c (Proc.devRef .tc main_arg5) = W4 m ρ c (Proc.devRef .tc main_arg5) by host_keep hostOps1).trans (at4_arg5 m ρ c)

theorem at5_arg6 : W5 m ρ c (Proc.devRef .tc main_arg6) = (m ((c : Thread nD τ).loc main_arg6)) :=
  (show W5 m ρ c (Proc.devRef .tc main_arg6) = W4 m ρ c (Proc.devRef .tc main_arg6) by host_keep hostOps1).trans (at4_arg6 m ρ c)

theorem at5_arg7 : W5 m ρ c (Proc.devRef .tc main_arg7) = (m ((c : Thread nD τ).loc main_arg7)) :=
  (show W5 m ρ c (Proc.devRef .tc main_arg7) = W4 m ρ c (Proc.devRef .tc main_arg7) by host_keep hostOps1).trans (at4_arg7 m ρ c)

theorem at5_arg8 : W5 m ρ c (Proc.devRef .tc main_arg8) = (m ((c : Thread nD τ).loc main_arg8)) :=
  (show W5 m ρ c (Proc.devRef .tc main_arg8) = W4 m ρ c (Proc.devRef .tc main_arg8) by host_keep hostOps1).trans (at4_arg8 m ρ c)

theorem at6_v7 : W6 m ρ c (Proc.devRef .tc main_v7) = (normCol (m ((c : Thread nD τ).loc main_arg2))) :=
  ((W6_arr m ρ c 1).trans (((dat1 (V5 m ρ) c).arrAt_in 1 rfl _).trans (A_eq1 (V5 m ρ) c 1))).trans (at5_v7 m ρ c)

theorem at6_v19 : W6 m ρ c (Proc.devRef .tc main_v19) = (agg0 (m ((c : Thread nD τ).loc main_arg0)) (m ((c : Thread nD τ).loc main_arg1)) (m ((c : Thread nD τ).loc main_arg2))) :=
  (W6_of_ne m ρ c main_v19 (by decide)).trans (at5_v19 m ρ c)

theorem at6_v20 : W6 m ρ c (Proc.devRef .tc main_v20) = zeros :=
  (W6_of_ne m ρ c main_v20 (by decide)).trans (at5_v20 m ρ c)

set_option maxHeartbeats 4000000 in
theorem at6_v47 : W6 m ρ c (Proc.devRef .tc main_v47) = (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8))))) := by
  have e0 : V5 m ρ c (Pipeline.arrRef spec1 0) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab0 (m ((c : Thread nD τ).loc main_arg3))) (asRowK (vec0 (m ((c : Thread nD τ).loc main_arg4)))) (slab0 (m ((c : Thread nD τ).loc main_arg7))) (asRowK (vec0 (m ((c : Thread nD τ).loc main_arg8)))))) := at5_v46 m ρ c
  have e1 : V5 m ρ c (Pipeline.arrRef spec1 1) = (normCol (m ((c : Thread nD τ).loc main_arg2))) := at5_v7 m ρ c
  have e2 : V5 m ρ c (Pipeline.arrRef spec1 2) = (rowAffine (n := 50000) (m ((c : Thread nD τ).loc main_arg0)) (slab0 (m ((c : Thread nD τ).loc main_arg7))) (asRowK (vec0 (m ((c : Thread nD τ).loc main_arg8))))) := at5_v36_0 m ρ c
  have e3 : V5 m ρ c (Pipeline.arrRef spec1 3) = (slab0 (m ((c : Thread nD τ).loc main_arg5))) := at5_v32 m ρ c
  have e4 : V5 m ρ c (Pipeline.arrRef spec1 4) = (asRowK (vec0 (m ((c : Thread nD τ).loc main_arg6)))) := at5_v35 m ρ c
  have h := (W6_arr m ρ c 5).trans (second_array1 (V5 m ρ) c)
  rw [e0, e1, e2, e3, e4] at h
  exact h

theorem at6_arg0 : W6 m ρ c (Proc.devRef .tc main_arg0) = (m ((c : Thread nD τ).loc main_arg0)) :=
  (W6_of_ne m ρ c main_arg0 (by decide)).trans (at5_arg0 m ρ c)

theorem at6_arg1 : W6 m ρ c (Proc.devRef .tc main_arg1) = (m ((c : Thread nD τ).loc main_arg1)) :=
  (W6_of_ne m ρ c main_arg1 (by decide)).trans (at5_arg1 m ρ c)

theorem at6_arg2 : W6 m ρ c (Proc.devRef .tc main_arg2) = (m ((c : Thread nD τ).loc main_arg2)) :=
  (W6_of_ne m ρ c main_arg2 (by decide)).trans (at5_arg2 m ρ c)

theorem at6_arg3 : W6 m ρ c (Proc.devRef .tc main_arg3) = (m ((c : Thread nD τ).loc main_arg3)) :=
  (W6_of_ne m ρ c main_arg3 (by decide)).trans (at5_arg3 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

theorem at7_v7 : W7 m ρ c (Proc.devRef .tc main_v7) = (normCol (m ((c : Thread nD τ).loc main_arg2))) :=
  (show W7 m ρ c (Proc.devRef .tc main_v7) = W6 m ρ c (Proc.devRef .tc main_v7) by host_keep hostOps2).trans (at6_v7 m ρ c)

theorem at7_v19 : W7 m ρ c (Proc.devRef .tc main_v19) = (agg0 (m ((c : Thread nD τ).loc main_arg0)) (m ((c : Thread nD τ).loc main_arg1)) (m ((c : Thread nD τ).loc main_arg2))) :=
  (show W7 m ρ c (Proc.devRef .tc main_v19) = W6 m ρ c (Proc.devRef .tc main_v19) by host_keep hostOps2).trans (at6_v19 m ρ c)

set_option maxHeartbeats 4000000 in
theorem at7_v48 : W7 m ρ c (Proc.devRef .tc main_v48) = (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) := by
  have h : W7 m ρ c (Proc.devRef .tc main_v48) = addf (F := Ideal) (φ := .f32) ((W6 m ρ c (Proc.devRef .tc main_v20)) : Nodes) ((W6 m ρ c (Proc.devRef .tc main_v47)) : Nodes) := by
    show StableHlo.after hostOps2 (W6 m ρ c) (Proc.devRef .tc main_v48) = _
    generalize W6 m ρ c = Vp
    after_results_simp <;> rfl
  rw [h, at6_v20, at6_v47]

set_option maxHeartbeats 4000000 in
theorem at7_v50 : W7 m ρ c (Proc.devRef .tc main_v50) = (slab1 (m ((c : Thread nD τ).loc main_arg3))) := by
  have h : W7 m ρ c (Proc.devRef .tc main_v50) = slab1 (W6 m ρ c (Proc.devRef .tc main_arg3)) := by
    show StableHlo.after hostOps2 (W6 m ρ c) (Proc.devRef .tc main_v50) = _
    generalize W6 m ρ c = Vp
    after_results_simp <;> rfl
  rw [h, at6_arg3]

set_option maxHeartbeats 4000000 in
theorem at7_v53 : W7 m ρ c (Proc.devRef .tc main_v53) = (asRowK (vec1 (m ((c : Thread nD τ).loc main_arg4)))) := by
  have h : W7 m ρ c (Proc.devRef .tc main_v53) = asRowK (vec1 (W6 m ρ c (Proc.devRef .tc main_arg4))) := by
    show StableHlo.after hostOps2 (W6 m ρ c) (Proc.devRef .tc main_v53) = _
    generalize W6 m ρ c = Vp
    after_results_simp <;> rfl
  rw [h, at6_arg4]

set_option maxHeartbeats 4000000 in
theorem at7_v55 : W7 m ρ c (Proc.devRef .tc main_v55) = (slab1 (m ((c : Thread nD τ).loc main_arg7))) := by
  have h : W7 m ρ c (Proc.devRef .tc main_v55) = slab1 (W6 m ρ c (Proc.devRef .tc main_arg7)) := by
    show StableHlo.after hostOps2 (W6 m ρ c) (Proc.devRef .tc main_v55) = _
    generalize W6 m ρ c = Vp
    after_results_simp <;> rfl
  rw [h, at6_arg7]

set_option maxHeartbeats 4000000 in
theorem at7_v58 : W7 m ρ c (Proc.devRef .tc main_v58) = (asRowK (vec1 (m ((c : Thread nD τ).loc main_arg8)))) := by
  have h : W7 m ρ c (Proc.devRef .tc main_v58) = asRowK (vec1 (W6 m ρ c (Proc.devRef .tc main_arg8))) := by
    show StableHlo.after hostOps2 (W6 m ρ c) (Proc.devRef .tc main_v58) = _
    generalize W6 m ρ c = Vp
    after_results_simp <;> rfl
  rw [h, at6_arg8]

set_option maxHeartbeats 4000000 in
theorem at7_v60 : W7 m ρ c (Proc.devRef .tc main_v60) = (slab1 (m ((c : Thread nD τ).loc main_arg5))) := by
  have h : W7 m ρ c (Proc.devRef .tc main_v60) = slab1 (W6 m ρ c (Proc.devRef .tc main_arg5)) := by
    show StableHlo.after hostOps2 (W6 m ρ c) (Proc.devRef .tc main_v60) = _
    generalize W6 m ρ c = Vp
    after_results_simp <;> rfl
  rw [h, at6_arg5]

set_option maxHeartbeats 4000000 in
theorem at7_v63 : W7 m ρ c (Proc.devRef .tc main_v63) = (asRowK (vec1 (m ((c : Thread nD τ).loc main_arg6)))) := by
  have h : W7 m ρ c (Proc.devRef .tc main_v63) = asRowK (vec1 (W6 m ρ c (Proc.devRef .tc main_arg6))) := by
    show StableHlo.after hostOps2 (W6 m ρ c) (Proc.devRef .tc main_v63) = _
    generalize W6 m ρ c = Vp
    after_results_simp <;> rfl
  rw [h, at6_arg6]

theorem at7_arg0 : W7 m ρ c (Proc.devRef .tc main_arg0) = (m ((c : Thread nD τ).loc main_arg0)) :=
  (show W7 m ρ c (Proc.devRef .tc main_arg0) = W6 m ρ c (Proc.devRef .tc main_arg0) by host_keep hostOps2).trans (at6_arg0 m ρ c)

theorem at7_arg1 : W7 m ρ c (Proc.devRef .tc main_arg1) = (m ((c : Thread nD τ).loc main_arg1)) :=
  (show W7 m ρ c (Proc.devRef .tc main_arg1) = W6 m ρ c (Proc.devRef .tc main_arg1) by host_keep hostOps2).trans (at6_arg1 m ρ c)

theorem at7_arg2 : W7 m ρ c (Proc.devRef .tc main_arg2) = (m ((c : Thread nD τ).loc main_arg2)) :=
  (show W7 m ρ c (Proc.devRef .tc main_arg2) = W6 m ρ c (Proc.devRef .tc main_arg2) by host_keep hostOps2).trans (at6_arg2 m ρ c)

theorem at7_arg3 : W7 m ρ c (Proc.devRef .tc main_arg3) = (m ((c : Thread nD τ).loc main_arg3)) :=
  (show W7 m ρ c (Proc.devRef .tc main_arg3) = W6 m ρ c (Proc.devRef .tc main_arg3) by host_keep hostOps2).trans (at6_arg3 m ρ c)

theorem at7_arg4 : W7 m ρ c (Proc.devRef .tc main_arg4) = (m ((c : Thread nD τ).loc main_arg4)) :=
  (show W7 m ρ c (Proc.devRef .tc main_arg4) = W6 m ρ c (Proc.devRef .tc main_arg4) by host_keep hostOps2).trans (at6_arg4 m ρ c)

theorem at7_arg5 : W7 m ρ c (Proc.devRef .tc main_arg5) = (m ((c : Thread nD τ).loc main_arg5)) :=
  (show W7 m ρ c (Proc.devRef .tc main_arg5) = W6 m ρ c (Proc.devRef .tc main_arg5) by host_keep hostOps2).trans (at6_arg5 m ρ c)

theorem at7_arg6 : W7 m ρ c (Proc.devRef .tc main_arg6) = (m ((c : Thread nD τ).loc main_arg6)) :=
  (show W7 m ρ c (Proc.devRef .tc main_arg6) = W6 m ρ c (Proc.devRef .tc main_arg6) by host_keep hostOps2).trans (at6_arg6 m ρ c)

theorem at7_arg7 : W7 m ρ c (Proc.devRef .tc main_arg7) = (m ((c : Thread nD τ).loc main_arg7)) :=
  (show W7 m ρ c (Proc.devRef .tc main_arg7) = W6 m ρ c (Proc.devRef .tc main_arg7) by host_keep hostOps2).trans (at6_arg7 m ρ c)

theorem at7_arg8 : W7 m ρ c (Proc.devRef .tc main_arg8) = (m ((c : Thread nD τ).loc main_arg8)) :=
  (show W7 m ρ c (Proc.devRef .tc main_arg8) = W6 m ρ c (Proc.devRef .tc main_arg8) by host_keep hostOps2).trans (at6_arg8 m ρ c)

end Cert.KernelIdeal.Whole

end
-- ==== Proof.Blocks2.lean ====
/-
  Launch 2 (the first layer of one stack, ten blocks of 5000 rows): what its two output arrays hold afterwards.

  Block t of each row-tiled operand is rows 5000·t … 5000·t + 4999 of its array; the weights and bias rows are read whole at
  every point. The body's two stores are the residual X·V + bv and the first layer of the block's rows, so — every row of
  the two outputs lying in exactly the block that 5000 divides it into — the arrays end at those functions of the whole
  operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The residual store is the linear layer of the block. -/
theorem resid_store2 (x1 : Vec Ideal S5000x128 .f32) (x5 : Vec Ideal S128x128 .f32) (x6 : Vec Ideal S1x128 .f32) :
    k2_pay1 (F := Ideal) x1 x5 x6 = rowAffine x1 x5 x6 := by
  unfold k2_pay1
  exact kernel_rowAffine dot_S5000x128_S128x128_S5000x128_1_0_0_1_n_n.wf bitsLt_bf16_f32 x1 x5 x6 _ _ _

/-- The second store is the first layer of the block. -/
theorem first_store2 (x2 : Vec Ideal S5000x1 .f32) (x0 x1 : Vec Ideal S5000x128 .f32) (x3 x5 : Vec Ideal S128x128 .f32)
    (x4 x6 : Vec Ideal S1x128 .f32) :
    k2_pay2 (F := Ideal) x2 x0 x1 x3 x5 x4 x6 = firstLayer x0 x1 x2 x3 x4 x5 x6 := by
  unfold k2_pay2 k2_pay1
  exact kernel_firstLayer dot_S5000x128_S128x128_S5000x128_1_0_0_1_n_n.wf bitsLt_bf16_f32 x2 x0 x1 x3 x5 x4 x6 _ _ _ _ _ _ _

/-- The index maps over the grid: the row-tiled windows are at block (t, 0), the others at (0, 0). -/
theorem blocks_at2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 ∧ t.val < 10 :=
  (by decide +kernel : ∀ t : Fin grid2.N, _)

/-- A whole-array window's block is its array. -/
theorem whole2_3 (c : Dev nD) (t : Fin cfg2.N) : iblk2 V c 3 t = V c (Pipeline.arrRef spec2 3) := by
  obtain ⟨-, -, -, -, -, -, e0, e1, -⟩ := blocks_at2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega
theorem whole2_4 (c : Dev nD) (t : Fin cfg2.N) : iblk2 V c 4 t = V c (Pipeline.arrRef spec2 4) := by
  obtain ⟨-, -, -, -, -, -, -, -, e0, e1, -⟩ := blocks_at2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega
theorem whole2_5 (c : Dev nD) (t : Fin cfg2.N) : iblk2 V c 5 t = V c (Pipeline.arrRef spec2 5) := by
  obtain ⟨-, -, -, -, -, -, -, -, -, -, e0, e1, -⟩ := blocks_at2 t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega
theorem whole2_6 (c : Dev nD) (t : Fin cfg2.N) : iblk2 V c 6 t = V c (Pipeline.arrRef spec2 6) := by
  obtain ⟨-, -, -, -, -, -, -, -, -, -, -, -, e0, e1, -⟩ := blocks_at2 t
  funext y
  show V c (Pipeline.arrRef spec2 6) (((cfg2.win 6).blk t).view.emb y) = V c (Pipeline.arrRef spec2 6) y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Row p of block t of a row-tiled window is row 5000·t + p of its array. -/
theorem rows2_0 (c : Dev nD) (t : Fin cfg2.N) (p : Fin 5000) (k : Fin 128) (h : t.val * 5000 + p.val < 50000) :
    iblk2 V c 0 t (ix2 p k) = V c (Pipeline.arrRef spec2 0) (ix2 (⟨t.val * 5000 + p.val, h⟩ : Fin 50000) k) := by
  obtain ⟨e0, e1, -⟩ := blocks_at2 t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega
theorem rows2_1 (c : Dev nD) (t : Fin cfg2.N) (p : Fin 5000) (k : Fin 128) (h : t.val * 5000 + p.val < 50000) :
    iblk2 V c 1 t (ix2 p k) = V c (Pipeline.arrRef spec2 1) (ix2 (⟨t.val * 5000 + p.val, h⟩ : Fin 50000) k) := by
  obtain ⟨-, -, e0, e1, -⟩ := blocks_at2 t
  show V c (Pipeline.arrRef spec2 1) (((cfg2.win 1).blk t).view.emb (ix2 p k)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega
theorem rows2_2 (c : Dev nD) (t : Fin cfg2.N) (p : Fin 5000) (h : t.val * 5000 + p.val < 50000) :
    iblk2 V c 2 t (ix2 p (0 : Fin 1)) = V c (Pipeline.arrRef spec2 2) (ix2 (⟨t.val * 5000 + p.val, h⟩ : Fin 50000) (0 : Fin 1)) := by
  obtain ⟨-, -, -, -, e0, e1, -⟩ := blocks_at2 t
  show V c (Pipeline.arrRef spec2 2) (((cfg2.win 2).blk t).view.emb (ix2 p (0 : Fin 1))) = _
  refine congrArg _ (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

set_option maxHeartbeats 4000000 in
/-- What point t writes back to output 7 is block t of the residual of the whole arrays. -/
theorem flushed2_7 (c : Dev nD) (t : Fin cfg2.N) :
    (dat2 V c).flushed 7 t = ((cfg2.win 7).blk t).view.read (Elt Ideal)
      (rowAffine (n := 50000) (V c (Pipeline.arrRef spec2 1)) (V c (Pipeline.arrRef spec2 5)) (V c (Pipeline.arrRef spec2 6))) := by
  show (cfg2.win 7).cut (grid2.coords t) ((dat2 V c).after 7 t) = _
  rw [after2_7]
  unfold out2_7
  rw [View.canon_unit_zero origin2]
  simp only [View.ld_unit_zero (S := S5000x128) origin2, View.ld_unit_zero (S := S128x128) origin2, View.ld_unit_zero (S := S1x128) origin2]
  rw [resid_store2, whole2_5, whole2_6]
  obtain ⟨-, -, -, -, -, -, -, -, -, -, -, -, -, -, e0, e1, -, -, ht⟩ := blocks_at2 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg2.win 7).blk t).view.emb (ix2 p q) = ix2 (⟨t.val * 5000 + p.val, hp⟩ : Fin 50000) q :=
    funext fun a => Fin.ext (by
      match a with
      | ⟨0, _⟩ => show win2_7.index t (0 : Fin 2) * 5000 + 1 * p.val = t.val * 5000 + p.val; omega
      | ⟨1, _⟩ => show win2_7.index t (1 : Fin 2) * 128 + 1 * q.val = q.val; omega)
  show rowAffine (iblk2 V c 1 t) (V c (Pipeline.arrRef spec2 5)) (V c (Pipeline.arrRef spec2 6)) (ix2 p q)
      = rowAffine (n := 50000) (V c (Pipeline.arrRef spec2 1)) (V c (Pipeline.arrRef spec2 5)) (V c (Pipeline.arrRef spec2 6))
          (((cfg2.win 7).blk t).view.emb (ix2 p q))
  rw [he]
  exact rowAffine_rows _ _ _ _ p ⟨t.val * 5000 + p.val, hp⟩ (fun k => rows2_1 V c t p k hp) q

set_option maxHeartbeats 4000000 in
/-- What point t writes back to output 8 is block t of the first layer of the whole arrays. -/
theorem flushed2_8 (c : Dev nD) (t : Fin cfg2.N) :
    (dat2 V c).flushed 8 t = ((cfg2.win 8).blk t).view.read (Elt Ideal)
      (firstLayer (n := 50000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) := by
  show (cfg2.win 8).cut (grid2.coords t) ((dat2 V c).after 8 t) = _
  rw [after2_8]
  unfold out2_8
  rw [View.canon_unit_zero origin2]
  simp only [View.ld_unit_zero (S := S5000x128) origin2, View.ld_unit_zero (S := S5000x1) origin2,
    View.ld_unit_zero (S := S128x128) origin2, View.ld_unit_zero (S := S1x128) origin2]
  rw [first_store2, whole2_3, whole2_4, whole2_5, whole2_6]
  obtain ⟨-, -, -, -, -, -, -, -, -, -, -, -, -, -, -, -, e0, e1, ht⟩ := blocks_at2 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg2.win 8).blk t).view.emb (ix2 p q) = ix2 (⟨t.val * 5000 + p.val, hp⟩ : Fin 50000) q :=
    funext fun a => Fin.ext (by
      match a with
      | ⟨0, _⟩ => show win2_8.index t (0 : Fin 2) * 5000 + 1 * p.val = t.val * 5000 + p.val; omega
      | ⟨1, _⟩ => show win2_8.index t (1 : Fin 2) * 128 + 1 * q.val = q.val; omega)
  show firstLayer (iblk2 V c 0 t) (iblk2 V c 1 t) (iblk2 V c 2 t) (V c (Pipeline.arrRef spec2 3)) (V c (Pipeline.arrRef spec2 4))
        (V c (Pipeline.arrRef spec2 5)) (V c (Pipeline.arrRef spec2 6)) (ix2 p q)
      = firstLayer (n := 50000) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6))
          (((cfg2.win 8).blk t).view.emb (ix2 p q))
  rw [he]
  exact firstLayer_rows _ _ _ _ _ _ _ _ _ _ p ⟨t.val * 5000 + p.val, hp⟩ (fun k => rows2_0 V c t p k hp)
    (fun k => rows2_1 V c t p k hp) (rows2_2 V c t p hp) q

/-- An index of output w's array is in point t's block iff each coordinate is in the block's range. -/
theorem mem_block2_7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole (Pipeline.arrRef spec2 7)).slice (win2_7.rect t)).set ↔ _
  rw [View.set_slice_whole, Rect.mem_set_unit]
  exact Iff.rfl
theorem mem_block2_8 (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole (Pipeline.arrRef spec2 8)).slice (win2_8.rect t)).set ↔ _
  rw [View.set_slice_whole, Rect.mem_set_unit]
  exact Iff.rfl

/-- Every row lies in the block that 5000 divides it into. -/
theorem covered2_7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, -, -, -, -, e0, e1, -⟩ := blocks_at2 t
  have ht : t.val = (i 0).val / 5000 := rfl
  refine ⟨t, flush2_7 t, ?_⟩
  rw [mem_block2_7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega
theorem covered2_8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, -, -, -, -, -, -, e0, e1, -⟩ := blocks_at2 t
  have ht : t.val = (i 0).val / 5000 := rfl
  refine ⟨t, flush2_8 t, ?_⟩
  rw [mem_block2_8]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

set_option maxHeartbeats 4000000 in
/-- After the launch output 7 is the residual X·V + bv of the operand arrays as the launch found them, -/
theorem resid_array2 (c : Dev nD) : (dat2 V c).arrAt 7 cfg2.N
    = rowAffine (n := 50000) (V c (Pipeline.arrRef spec2 1)) (V c (Pipeline.arrRef spec2 5)) (V c (Pipeline.arrRef spec2 6)) :=
  (dat2 V c).arrAt_eq_of_cover 7 _ (fun t _ => flushed2_7 V c t) covered2_7

set_option maxHeartbeats 4000000 in
/-- and output 8 their first layer. -/
theorem first_array2 (c : Dev nD) : (dat2 V c).arrAt 8 cfg2.N
    = firstLayer (n := 50000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  (dat2 V c).arrAt_eq_of_cover 8 _ (fun t _ => flushed2_8 V c t) covered2_8

end Cert.KernelIdeal.Whole

end
-- ==== Proof.Blocks3.lean ====
/-
  Launch 3 (the second layer of one stack, ten blocks of 5000 rows): what its output array holds afterwards.

  Block t of each row-tiled operand — the aggregated rows, the scale column, the residual — is rows 5000·t … 5000·t + 4999 of
  its array; the weights and the bias row are read whole at every point. The body's store is the second layer of the
  block's rows, so the output array ends at the second layer of the whole operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin3 : (![0, 0] : Fin 2 → Nat) = fun _ => 0 := funext fun a => by fin_cases a <;> rfl

/-- The store is the second layer of the block. -/
theorem second_store3 (x1 : Vec Ideal S5000x1 .f32) (x0 : Vec Ideal S5000x128 .f32) (x3 : Vec Ideal S128x128 .f32)
    (x4 : Vec Ideal S1x128 .f32) (x2 : Vec Ideal S5000x128 .f32) :
    k3_pay1 (F := Ideal) x1 x0 x3 x4 x2 = secondLayer x0 x1 x2 x3 x4 := by
  unfold k3_pay1
  exact kernel_secondLayer dot_S5000x128_S128x128_S5000x128_1_0_0_1_n_n.wf bitsLt_bf16_f32 x1 x0 x2 x3 x4 _ _ _ _ _ _ _

/-- The index maps over the grid: the row-tiled windows are at block (t, 0), the others at (0, 0). -/
theorem blocks_at3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- A whole-array window's block is its array. -/
theorem whole3_3 (c : Dev nD) (t : Fin cfg3.N) : iblk3 V c 3 t = V c (Pipeline.arrRef spec3 3) := by
  obtain ⟨-, -, -, -, -, -, e0, e1, -⟩ := blocks_at3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega
theorem whole3_4 (c : Dev nD) (t : Fin cfg3.N) : iblk3 V c 4 t = V c (Pipeline.arrRef spec3 4) := by
  obtain ⟨-, -, -, -, -, -, -, -, e0, e1, -⟩ := blocks_at3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Row p of block t of a row-tiled window is row 5000·t + p of its array. -/
theorem rows3_0 (c : Dev nD) (t : Fin cfg3.N) (p : Fin 5000) (k : Fin 128) (h : t.val * 5000 + p.val < 50000) :
    iblk3 V c 0 t (ix2 p k) = V c (Pipeline.arrRef spec3 0) (ix2 (⟨t.val * 5000 + p.val, h⟩ : Fin 50000) k) := by
  obtain ⟨e0, e1, -⟩ := blocks_at3 t
  show V c (Pipeline.arrRef spec3 0) (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega
theorem rows3_1 (c : Dev nD) (t : Fin cfg3.N) (p : Fin 5000) (h : t.val * 5000 + p.val < 50000) :
    iblk3 V c 1 t (ix2 p (0 : Fin 1)) = V c (Pipeline.arrRef spec3 1) (ix2 (⟨t.val * 5000 + p.val, h⟩ : Fin 50000) (0 : Fin 1)) := by
  obtain ⟨-, -, e0, e1, -⟩ := blocks_at3 t
  show V c (Pipeline.arrRef spec3 1) (((cfg3.win 1).blk t).view.emb (ix2 p (0 : Fin 1))) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * 0 = 0; omega
theorem rows3_2 (c : Dev nD) (t : Fin cfg3.N) (p : Fin 5000) (k : Fin 128) (h : t.val * 5000 + p.val < 50000) :
    iblk3 V c 2 t (ix2 p k) = V c (Pipeline.arrRef spec3 2) (ix2 (⟨t.val * 5000 + p.val, h⟩ : Fin 50000) k) := by
  obtain ⟨-, -, -, -, e0, e1, -⟩ := blocks_at3 t
  show V c (Pipeline.arrRef spec3 2) (((cfg3.win 2).blk t).view.emb (ix2 p k)) = _
  refine congrArg _ (funext fun a => Fin.ext ?_)
  match a with
  | ⟨0, _⟩ => show win3_2.index t (0 : Fin 2) * 5000 + 1 * p.val = t.val * 5000 + p.val; omega
  | ⟨1, _⟩ => show win3_2.index t (1 : Fin 2) * 128 + 1 * k.val = k.val; omega

set_option maxHeartbeats 4000000 in
/-- What point t writes back is block t of the second layer of the whole arrays. -/
theorem flushed3_5 (c : Dev nD) (t : Fin cfg3.N) :
    (dat3 V c).flushed 5 t = ((cfg3.win 5).blk t).view.read (Elt Ideal)
      (secondLayer (n := 50000) (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero origin3]
  simp only [View.ld_unit_zero (S := S5000x128) origin3, View.ld_unit_zero (S := S5000x1) origin3,
    View.ld_unit_zero (S := S128x128) origin3, View.ld_unit_zero (S := S1x128) origin3]
  rw [second_store3, whole3_3, whole3_4]
  obtain ⟨-, -, -, -, -, -, -, -, -, -, e0, e1, ht⟩ := blocks_at3 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg3.win 5).blk t).view.emb (ix2 p q) = ix2 (⟨t.val * 5000 + p.val, hp⟩ : Fin 50000) q :=
    funext fun a => Fin.ext (by
      match a with
      | ⟨0, _⟩ => show win3_5.index t (0 : Fin 2) * 5000 + 1 * p.val = t.val * 5000 + p.val; omega
      | ⟨1, _⟩ => show win3_5.index t (1 : Fin 2) * 128 + 1 * q.val = q.val; omega)
  show secondLayer (iblk3 V c 0 t) (iblk3 V c 1 t) (iblk3 V c 2 t) (V c (Pipeline.arrRef spec3 3)) (V c (Pipeline.arrRef spec3 4)) (ix2 p q)
      = secondLayer (n := 50000) (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb (ix2 p q))
  rw [he]
  exact secondLayer_rows _ _ _ _ _ _ _ _ p ⟨t.val * 5000 + p.val, hp⟩ (fun k => rows3_0 V c t p k hp)
    (rows3_1 V c t p hp) q (rows3_2 V c t p q hp)

/-- An index of the output's array is in point t's block iff each coordinate is in the block's range. -/
theorem mem_block3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Every row lies in the block that 5000 divides it into. -/
theorem covered3_5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, e0, e1, -⟩ := blocks_at3 t
  have ht : t.val = (i 0).val / 5000 := rfl
  refine ⟨t, flush3_5 t, ?_⟩
  rw [mem_block3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

set_option maxHeartbeats 4000000 in
/-- After the launch the output is the second layer of the operand arrays as the launch found them. -/
theorem second_array3 (c : Dev nD) : (dat3 V c).arrAt 5 cfg3.N
    = secondLayer (n := 50000) (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed3_5 V c t) covered3_5

end Cert.KernelIdeal.Whole

end
-- ==== Proof.Chain8.lean ====
/-
  The second stack: the buffers later segments read, from the third launch's exit to the fifth launch's entry.
-/
import proofs.«101264_j58145267253837_2_alg».proof.Proof.Chain4
import proofs.«101264_j58145267253837_2_alg».proof.Proof.Blocks2
import proofs.«101264_j58145267253837_2_alg».proof.Proof.Blocks3

set_option maxRecDepth 16384

noncomputable section

namespace Cert.KernelIdeal.Whole

open Cert.KernelIdeal Cert.KernelIdeal.Gen Cert.Arma
open Idealize.ShloMosaic Idealize.ShloMosaic.TcCoe Idealize.SL.Sem

variable (m : (ℓ : Loc nD τ sig) → Buf (Elt Ideal) ℓ) (ρ : Dev nD → PrngReg) (c : Dev nD)

theorem at8_v7 : W8 m ρ c (Proc.devRef .tc main_v7) = (normCol (m ((c : Thread nD τ).loc main_arg2))) :=
  ((W8_arr m ρ c 2).trans (((dat2 (V7 m ρ) c).arrAt_in 2 rfl _).trans (A_eq2 (V7 m ρ) c 2))).trans (at7_v7 m ρ c)

theorem at8_v19 : W8 m ρ c (Proc.devRef .tc main_v19) = (agg0 (m ((c : Thread nD τ).loc main_arg0)) (m ((c : Thread nD τ).loc main_arg1)) (m ((c : Thread nD τ).loc main_arg2))) :=
  ((W8_arr m ρ c 0).trans (((dat2 (V7 m ρ) c).arrAt_in 0 rfl _).trans (A_eq2 (V7 m ρ) c 0))).trans (at7_v19 m ρ c)

theorem at8_v48 : W8 m ρ c (Proc.devRef .tc main_v48) = (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) :=
  (W8_of_ne m ρ c main_v48 (by decide)).trans (at7_v48 m ρ c)

theorem at8_v60 : W8 m ρ c (Proc.devRef .tc main_v60) = (slab1 (m ((c : Thread nD τ).loc main_arg5))) :=
  (W8_of_ne m ρ c main_v60 (by decide)).trans (at7_v60 m ρ c)

theorem at8_v63 : W8 m ρ c (Proc.devRef .tc main_v63) = (asRowK (vec1 (m ((c : Thread nD τ).loc main_arg6)))) :=
  (W8_of_ne m ρ c main_v63 (by decide)).trans (at7_v63 m ρ c)

set_option maxHeartbeats 4000000 in
theorem at8_v64_0 : W8 m ρ c (Proc.devRef .tc main_v64_0) = (rowAffine (n := 50000) (m ((c : Thread nD τ).loc main_arg0)) (slab1 (m ((c : Thread nD τ).loc main_arg7))) (asRowK (vec1 (m ((c : Thread nD τ).loc main_arg8))))) := by
  have e1 : V7 m ρ c (Pipeline.arrRef spec2 1) = (m ((c : Thread nD τ).loc main_arg0)) := at7_arg0 m ρ c
  have e5 : V7 m ρ c (Pipeline.arrRef spec2 5) = (slab1 (m ((c : Thread nD τ).loc main_arg7))) := at7_v55 m ρ c
  have e6 : V7 m ρ c (Pipeline.arrRef spec2 6) = (asRowK (vec1 (m ((c : Thread nD τ).loc main_arg8)))) := at7_v58 m ρ c
  have h := (W8_arr m ρ c 7).trans (resid_array2 (V7 m ρ) c)
  rw [e1, e5, e6] at h
  exact h

set_option maxHeartbeats 4000000 in
theorem at8_v64_1 : W8 m ρ c (Proc.devRef .tc main_v64_1) = (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab1 (m ((c : Thread nD τ).loc main_arg3))) (asRowK (vec1 (m ((c : Thread nD τ).loc main_arg4)))) (slab1 (m ((c : Thread nD τ).loc main_arg7))) (asRowK (vec1 (m ((c : Thread nD τ).loc main_arg8))))) := by
  have e0 : V7 m ρ c (Pipeline.arrRef spec2 0) = (agg0 (m ((c : Thread nD τ).loc main_arg0)) (m ((c : Thread nD τ).loc main_arg1)) (m ((c : Thread nD τ).loc main_arg2))) := at7_v19 m ρ c
  have e1 : V7 m ρ c (Pipeline.arrRef spec2 1) = (m ((c : Thread nD τ).loc main_arg0)) := at7_arg0 m ρ c
  have e2 : V7 m ρ c (Pipeline.arrRef spec2 2) = (normCol (m ((c : Thread nD τ).loc main_arg2))) := at7_v7 m ρ c
  have e3 : V7 m ρ c (Pipeline.arrRef spec2 3) = (slab1 (m ((c : Thread nD τ).loc main_arg3))) := at7_v50 m ρ c
  have e4 : V7 m ρ c (Pipeline.arrRef spec2 4) = (asRowK (vec1 (m ((c : Thread nD τ).loc main_arg4)))) := at7_v53 m ρ c
  have e5 : V7 m ρ c (Pipeline.arrRef spec2 5) = (slab1 (m ((c : Thread nD τ).loc main_arg7))) := at7_v55 m ρ c
  have e6 : V7 m ρ c (Pipeline.arrRef spec2 6) = (asRowK (vec1 (m ((c : Thread nD τ).loc main_arg8)))) := at7_v58 m ρ c
  have h := (W8_arr m ρ c 8).trans (first_array2 (V7 m ρ) c)
  rw [e0, e1, e2, e3, e4, e5, e6] at h
  exact h

theorem at8_arg0 : W8 m ρ c (Proc.devRef .tc main_arg0) = (m ((c : Thread nD τ).loc main_arg0)) :=
  ((W8_arr m ρ c 1).trans (((dat2 (V7 m ρ) c).arrAt_in 1 rfl _).trans (A_eq2 (V7 m ρ) c 1))).trans (at7_arg0 m ρ c)

theorem at8_arg1 : W8 m ρ c (Proc.devRef .tc main_arg1) = (m ((c : Thread nD τ).loc main_arg1)) :=
  (W8_of_ne m ρ c main_arg1 (by decide)).trans (at7_arg1 m ρ c)

theorem at8_arg2 : W8 m ρ c (Proc.devRef .tc main_arg2) = (m ((c : Thread nD τ).loc main_arg2)) :=
  (W8_of_ne m ρ c main_arg2 (by decide)).trans (at7_arg2 m ρ c)

theorem at8_arg3 : W8 m ρ c (Proc.devRef .tc main_arg3) = (m ((c : Thread nD τ).loc main_arg3)) :=
  (W8_of_ne m ρ c main_arg3 (by decide)).trans (at7_arg3 m ρ c)

theorem at8_arg4 : W8 m ρ c (Proc.devRef .tc main_arg4) = (m ((c : Thread nD τ).loc main_arg4)) :=
  (W8_of_ne m ρ c main_arg4 (by decide)).trans (at7_arg4 m ρ c)

theorem at8_arg5 : W8 m ρ c (Proc.devRef .tc main_arg5) = (m ((c : Thread nD τ).loc main_arg5)) :=
  (W8_of_ne m ρ c main_arg5 (by decide)).trans (at7_arg5 m ρ c)

theorem at8_arg6 : W8 m ρ c (Proc.devRef .tc main_arg6) = (m ((c : Thread nD τ).loc main_arg6)) :=
  (W8_of_ne m ρ c main_arg6 (by decide)).trans (at7_arg6 m ρ c)

theorem at8_arg7 : W8 m ρ c (Proc.devRef .tc main_arg7) = (m ((c : Thread nD τ).loc main_arg7)) :=
  (W8_of_ne m ρ c main_arg7 (by decide)).trans (at7_arg7 m ρ c)

theorem at8_arg8 : W8 m ρ c (Proc.devRef .tc main_arg8) = (m ((c : Thread nD τ).loc main_arg8)) :=
  (W8_of_ne m ρ c main_arg8 (by decide)).trans (at7_arg8 m ρ c)

theorem at9_v7 : W9 m ρ c (Proc.devRef .tc main_v7) = (normCol (m ((c : Thread nD τ).loc main_arg2))) :=
  (show W9 m ρ c (Proc.devRef .tc main_v7) = W8 m ρ c (Proc.devRef .tc main_v7) by host_keep hostOps3).trans (at8_v7 m ρ c)

theorem at9_v19 : W9 m ρ c (Proc.devRef .tc main_v19) = (agg0 (m ((c : Thread nD τ).loc main_arg0)) (m ((c : Thread nD τ).loc main_arg1)) (m ((c : Thread nD τ).loc main_arg2))) :=
  (show W9 m ρ c (Proc.devRef .tc main_v19) = W8 m ρ c (Proc.devRef .tc main_v19) by host_keep hostOps3).trans (at8_v19 m ρ c)

theorem at9_v48 : W9 m ρ c (Proc.devRef .tc main_v48) = (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) :=
  (show W9 m ρ c (Proc.devRef .tc main_v48) = W8 m ρ c (Proc.devRef .tc main_v48) by host_keep hostOps3).trans (at8_v48 m ρ c)

theorem at9_v60 : W9 m ρ c (Proc.devRef .tc main_v60) = (slab1 (m ((c : Thread nD τ).loc main_arg5))) :=
  (show W9 m ρ c (Proc.devRef .tc main_v60) = W8 m ρ c (Proc.devRef .tc main_v60) by host_keep hostOps3).trans (at8_v60 m ρ c)

theorem at9_v63 : W9 m ρ c (Proc.devRef .tc main_v63) = (asRowK (vec1 (m ((c : Thread nD τ).loc main_arg6)))) :=
  (show W9 m ρ c (Proc.devRef .tc main_v63) = W8 m ρ c (Proc.devRef .tc main_v63) by host_keep hostOps3).trans (at8_v63 m ρ c)

theorem at9_v64_0 : W9 m ρ c (Proc.devRef .tc main_v64_0) = (rowAffine (n := 50000) (m ((c : Thread nD τ).loc main_arg0)) (slab1 (m ((c : Thread nD τ).loc main_arg7))) (asRowK (vec1 (m ((c : Thread nD τ).loc main_arg8))))) :=
  (show W9 m ρ c (Proc.devRef .tc main_v64_0) = W8 m ρ c (Proc.devRef .tc main_v64_0) by host_keep hostOps3).trans (at8_v64_0 m ρ c)

set_option maxHeartbeats 4000000 in
theorem at9_v74 : W9 m ρ c (Proc.devRef .tc main_v74) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab1 (m ((c : Thread nD τ).loc main_arg3))) (asRowK (vec1 (m ((c : Thread nD τ).loc main_arg4)))) (slab1 (m ((c : Thread nD τ).loc main_arg7))) (asRowK (vec1 (m ((c : Thread nD τ).loc main_arg8)))))) := by
  have h : W9 m ρ c (Proc.devRef .tc main_v74) = propagate (W8 m ρ c (Proc.devRef .tc main_arg1)) (W8 m ρ c (Proc.devRef .tc main_arg2)) (W8 m ρ c (Proc.devRef .tc main_v64_1)) := by
    show StableHlo.after hostOps3 (W8 m ρ c) (Proc.devRef .tc main_v74) = _
    generalize W8 m ρ c = Vp
    after_results_simp <;> rfl
  rw [h, at8_arg1, at8_arg2, at8_v64_1]

theorem at9_arg0 : W9 m ρ c (Proc.devRef .tc main_arg0) = (m ((c : Thread nD τ).loc main_arg0)) :=
  (show W9 m ρ c (Proc.devRef .tc main_arg0) = W8 m ρ c (Proc.devRef .tc main_arg0) by host_keep hostOps3).trans (at8_arg0 m ρ c)

theorem at9_arg1 : W9 m ρ c (Proc.devRef .tc main_arg1) = (m ((c : Thread nD τ).loc main_arg1)) :=
  (show W9 m ρ c (Proc.devRef .tc main_arg1) = W8 m ρ c (Proc.devRef .tc main_arg1) by host_keep hostOps3).trans (at8_arg1 m ρ c)

theorem at9_arg2 : W9 m ρ c (Proc.devRef .tc main_arg2) = (m ((c : Thread nD τ).loc main_arg2)) :=
  (show W9 m ρ c (Proc.devRef .tc main_arg2) = W8 m ρ c (Proc.devRef .tc main_arg2) by host_keep hostOps3).trans (at8_arg2 m ρ c)

theorem at9_arg3 : W9 m ρ c (Proc.devRef .tc main_arg3) = (m ((c : Thread nD τ).loc main_arg3)) :=
  (show W9 m ρ c (Proc.devRef .tc main_arg3) = W8 m ρ c (Proc.devRef .tc main_arg3) by host_keep hostOps3).trans (at8_arg3 m ρ c)

theorem at9_arg4 : W9 m ρ c (Proc.devRef .tc main_arg4) = (m ((c : Thread nD τ).loc main_arg4)) :=
  (show W9 m ρ c (Proc.devRef .tc main_arg4) = W8 m ρ c (Proc.devRef .tc main_arg4) by host_keep hostOps3).trans (at8_arg4 m ρ c)

theorem at9_arg5 : W9 m ρ c (Proc.devRef .tc main_arg5) = (m ((c : Thread nD τ).loc main_arg5)) :=
  (show W9 m ρ c (Proc.devRef .tc main_arg5) = W8 m ρ c (Proc.devRef .tc main_arg5) by host_keep hostOps3).trans (at8_arg5 m ρ c)

theorem at9_arg6 : W9 m ρ c (Proc.devRef .tc main_arg6) = (m ((c : Thread nD τ).loc main_arg6)) :=
  (show W9 m ρ c (Proc.devRef .tc main_arg6) = W8 m ρ c (Proc.devRef .tc main_arg6) by host_keep hostOps3).trans (at8_arg6 m ρ c)

theorem at9_arg7 : W9 m ρ c (Proc.devRef .tc main_arg7) = (m ((c : Thread nD τ).loc main_arg7)) :=
  (show W9 m ρ c (Proc.devRef .tc main_arg7) = W8 m ρ c (Proc.devRef .tc main_arg7) by host_keep hostOps3).trans (at8_arg7 m ρ c)

theorem at9_arg8 : W9 m ρ c (Proc.devRef .tc main_arg8) = (m ((c : Thread nD τ).loc main_arg8)) :=
  (show W9 m ρ c (Proc.devRef .tc main_arg8) = W8 m ρ c (Proc.devRef .tc main_arg8) by host_keep hostOps3).trans (at8_arg8 m ρ c)

theorem at10_v7 : W10 m ρ c (Proc.devRef .tc main_v7) = (normCol (m ((c : Thread nD τ).loc main_arg2))) :=
  ((W10_arr m ρ c 1).trans (((dat3 (V9 m ρ) c).arrAt_in 1 rfl _).trans (A_eq3 (V9 m ρ) c 1))).trans (at9_v7 m ρ c)

theorem at10_v19 : W10 m ρ c (Proc.devRef .tc main_v19) = (agg0 (m ((c : Thread nD τ).loc main_arg0)) (m ((c : Thread nD τ).loc main_arg1)) (m ((c : Thread nD τ).loc main_arg2))) :=
  (W10_of_ne m ρ c main_v19 (by decide)).trans (at9_v19 m ρ c)

theorem at10_v48 : W10 m ρ c (Proc.devRef .tc main_v48) = (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) :=
  (W10_of_ne m ρ c main_v48 (by decide)).trans (at9_v48 m ρ c)

set_option maxHeartbeats 4000000 in
theorem at10_v75 : W10 m ρ c (Proc.devRef .tc main_v75) = (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8))))) := by
  have e0 : V9 m ρ c (Pipeline.arrRef spec3 0) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab1 (m ((c : Thread nD τ).loc main_arg3))) (asRowK (vec1 (m ((c : Thread nD τ).loc main_arg4)))) (slab1 (m ((c : Thread nD τ).loc main_arg7))) (asRowK (vec1 (m ((c : Thread nD τ).loc main_arg8)))))) := at9_v74 m ρ c
  have e1 : V9 m ρ c (Pipeline.arrRef spec3 1) = (normCol (m ((c : Thread nD τ).loc main_arg2))) := at9_v7 m ρ c
  have e2 : V9 m ρ c (Pipeline.arrRef spec3 2) = (rowAffine (n := 50000) (m ((c : Thread nD τ).loc main_arg0)) (slab1 (m ((c : Thread nD τ).loc main_arg7))) (asRowK (vec1 (m ((c : Thread nD τ).loc main_arg8))))) := at9_v64_0 m ρ c
  have e3 : V9 m ρ c (Pipeline.arrRef spec3 3) = (slab1 (m ((c : Thread nD τ).loc main_arg5))) := at9_v60 m ρ c
  have e4 : V9 m ρ c (Pipeline.arrRef spec3 4) = (asRowK (vec1 (m ((c : Thread nD τ).loc main_arg6)))) := at9_v63 m ρ c
  have h := (W10_arr m ρ c 5).trans (second_array3 (V9 m ρ) c)
  rw [e0, e1, e2, e3, e4] at h
  exact h

theorem at10_arg0 : W10 m ρ c (Proc.devRef .tc main_arg0) = (m ((c : Thread nD τ).loc main_arg0)) :=
  (W10_of_ne m ρ c main_arg0 (by decide)).trans (at9_arg0 m ρ c)

theorem at10_arg1 : W10 m ρ c (Proc.devRef .tc main_arg1) = (m ((c : Thread nD τ).loc main_arg1)) :=
  (W10_of_ne m ρ c main_arg1 (by decide)).trans (at9_arg1 m ρ c)

theorem at10_arg2 : W10 m ρ c (Proc.devRef .tc main_arg2) = (m ((c : Thread nD τ).loc main_arg2)) :=
  (W10_of_ne m ρ c main_arg2 (by decide)).trans (at9_arg2 m ρ c)

theorem at10_arg3 : W10 m ρ c (Proc.devRef .tc main_arg3) = (m ((c : Thread nD τ).loc main_arg3)) :=
  (W10_of_ne m ρ c main_arg3 (by decide)).trans (at9_arg3 m ρ c)

theorem at10_arg4 : W10 m ρ c (Proc.devRef .tc main_arg4) = (m ((c : Thread nD τ).loc main_arg4)) :=
  (W10_of_ne m ρ c main_arg4 (by decide)).trans (at9_arg4 m ρ c)

theorem at10_arg5 : W10 m ρ c (Proc.devRef .tc main_arg5) = (m ((c : Thread nD τ).loc main_arg5)) :=
  (W10_of_ne m ρ c main_arg5 (by decide)).trans (at9_arg5 m ρ c)

theorem at10_arg6 : W10 m ρ c (Proc.devRef .tc main_arg6) = (m ((c : Thread nD τ).loc main_arg6)) :=
  (W10_of_ne m ρ c main_arg6 (by decide)).trans (at9_arg6 m ρ c)

theorem at10_arg7 : W10 m ρ c (Proc.devRef .tc main_arg7) = (m ((c : Thread nD τ).loc main_arg7)) :=
  (W10_of_ne m ρ c main_arg7 (by decide)).trans (at9_arg7 m ρ c)

theorem at10_arg8 : W10 m ρ c (Proc.devRef .tc main_arg8) = (m ((c : Thread nD τ).loc main_arg8)) :=
  (W10_of_ne m ρ c main_arg8 (by decide)).trans (at9_arg8 m ρ c)

theorem at11_v7 : W11 m ρ c (Proc.devRef .tc main_v7) = (normCol (m ((c : Thread nD τ).loc main_arg2))) :=
  (show W11 m ρ c (Proc.devRef .tc main_v7) = W10 m ρ c (Proc.devRef .tc main_v7) by host_keep hostOps4).trans (at10_v7 m ρ c)

theorem at11_v19 : W11 m ρ c (Proc.devRef .tc main_v19) = (agg0 (m ((c : Thread nD τ).loc main_arg0)) (m ((c : Thread nD τ).loc main_arg1)) (m ((c : Thread nD τ).loc main_arg2))) :=
  (show W11 m ρ c (Proc.devRef .tc main_v19) = W10 m ρ c (Proc.devRef .tc main_v19) by host_keep hostOps4).trans (at10_v19 m ρ c)

set_option maxHeartbeats 4000000 in
theorem at11_v76 : W11 m ρ c (Proc.devRef .tc main_v76) = (addf (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8)))))) := by
  have h : W11 m ρ c (Proc.devRef .tc main_v76) = addf (F := Ideal) (φ := .f32) ((W10 m ρ c (Proc.devRef .tc main_v48)) : Nodes) ((W10 m ρ c (Proc.devRef .tc main_v75)) : Nodes) := by
    show StableHlo.after hostOps4 (W10 m ρ c) (Proc.devRef .tc main_v76) = _
    generalize W10 m ρ c = Vp
    after_results_simp <;> rfl
  rw [h, at10_v48, at10_v75]

set_option maxHeartbeats 4000000 in
theorem at11_v78 : W11 m ρ c (Proc.devRef .tc main_v78) = (slab2 (m ((c : Thread nD τ).loc main_arg3))) := by
  have h : W11 m ρ c (Proc.devRef .tc main_v78) = slab2 (W10 m ρ c (Proc.devRef .tc main_arg3)) := by
    show StableHlo.after hostOps4 (W10 m ρ c) (Proc.devRef .tc main_v78) = _
    generalize W10 m ρ c = Vp
    after_results_simp <;> rfl
  rw [h, at10_arg3]

set_option maxHeartbeats 4000000 in
theorem at11_v81 : W11 m ρ c (Proc.devRef .tc main_v81) = (asRowK (vec2 (m ((c : Thread nD τ).loc main_arg4)))) := by
  have h : W11 m ρ c (Proc.devRef .tc main_v81) = asRowK (vec2 (W10 m ρ c (Proc.devRef .tc main_arg4))) := by
    show StableHlo.after hostOps4 (W10 m ρ c) (Proc.devRef .tc main_v81) = _
    generalize W10 m ρ c = Vp
    after_results_simp <;> rfl
  rw [h, at10_arg4]

set_option maxHeartbeats 4000000 in
theorem at11_v83 : W11 m ρ c (Proc.devRef .tc main_v83) = (slab2 (m ((c : Thread nD τ).loc main_arg7))) := by
  have h : W11 m ρ c (Proc.devRef .tc main_v83) = slab2 (W10 m ρ c (Proc.devRef .tc main_arg7)) := by
    show StableHlo.after hostOps4 (W10 m ρ c) (Proc.devRef .tc main_v83) = _
    generalize W10 m ρ c = Vp
    after_results_simp <;> rfl
  rw [h, at10_arg7]

set_option maxHeartbeats 4000000 in
theorem at11_v86 : W11 m ρ c (Proc.devRef .tc main_v86) = (asRowK (vec2 (m ((c : Thread nD τ).loc main_arg8)))) := by
  have h : W11 m ρ c (Proc.devRef .tc main_v86) = asRowK (vec2 (W10 m ρ c (Proc.devRef .tc main_arg8))) := by
    show StableHlo.after hostOps4 (W10 m ρ c) (Proc.devRef .tc main_v86) = _
    generalize W10 m ρ c = Vp
    after_results_simp <;> rfl
  rw [h, at10_arg8]

set_option maxHeartbeats 4000000 in
theorem at11_v88 : W11 m ρ c (Proc.devRef .tc main_v88) = (slab2 (m ((c : Thread nD τ).loc main_arg5))) := by
  have h : W11 m ρ c (Proc.devRef .tc main_v88) = slab2 (W10 m ρ c (Proc.devRef .tc main_arg5)) := by
    show StableHlo.after hostOps4 (W10 m ρ c) (Proc.devRef .tc main_v88) = _
    generalize W10 m ρ c = Vp
    after_results_simp <;> rfl
  rw [h, at10_arg5]

set_option maxHeartbeats 4000000 in
theorem at11_v91 : W11 m ρ c (Proc.devRef .tc main_v91) = (asRowK (vec2 (m ((c : Thread nD τ).loc main_arg6)))) := by
  have h : W11 m ρ c (Proc.devRef .tc main_v91) = asRowK (vec2 (W10 m ρ c (Proc.devRef .tc main_arg6))) := by
    show StableHlo.after hostOps4 (W10 m ρ c) (Proc.devRef .tc main_v91) = _
    generalize W10 m ρ c = Vp
    after_results_simp <;> rfl
  rw [h, at10_arg6]

theorem at11_arg0 : W11 m ρ c (Proc.devRef .tc main_arg0) = (m ((c : Thread nD τ).loc main_arg0)) :=
  (show W11 m ρ c (Proc.devRef .tc main_arg0) = W10 m ρ c (Proc.devRef .tc main_arg0) by host_keep hostOps4).trans (at10_arg0 m ρ c)

theorem at11_arg1 : W11 m ρ c (Proc.devRef .tc main_arg1) = (m ((c : Thread nD τ).loc main_arg1)) :=
  (show W11 m ρ c (Proc.devRef .tc main_arg1) = W10 m ρ c (Proc.devRef .tc main_arg1) by host_keep hostOps4).trans (at10_arg1 m ρ c)

theorem at11_arg2 : W11 m ρ c (Proc.devRef .tc main_arg2) = (m ((c : Thread nD τ).loc main_arg2)) :=
  (show W11 m ρ c (Proc.devRef .tc main_arg2) = W10 m ρ c (Proc.devRef .tc main_arg2) by host_keep hostOps4).trans (at10_arg2 m ρ c)

end Cert.KernelIdeal.Whole

end
-- ==== Proof.Blocks4.lean ====
/-
  Launch 4 (the first layer of one stack, ten blocks of 5000 rows): what its two output arrays hold afterwards.

  Block t of each row-tiled operand is rows 5000·t … 5000·t + 4999 of its array; the weights and bias rows are read whole at
  every point. The body's two stores are the residual X·V + bv and the first layer of the block's rows, so — every row of
  the two outputs lying in exactly the block that 5000 divides it into — the arrays end at those functions of the whole
  operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin4 : (![0, 0] : Fin 2 → Nat) = fun _ => 0 := funext fun a => by fin_cases a <;> rfl

/-- The residual store is the linear layer of the block. -/
theorem resid_store4 (x1 : Vec Ideal S5000x128 .f32) (x5 : Vec Ideal S128x128 .f32) (x6 : Vec Ideal S1x128 .f32) :
    k4_pay1 (F := Ideal) x1 x5 x6 = rowAffine x1 x5 x6 := by
  unfold k4_pay1
  exact kernel_rowAffine dot_S5000x128_S128x128_S5000x128_1_0_0_1_n_n.wf bitsLt_bf16_f32 x1 x5 x6 _ _ _

/-- The second store is the first layer of the block. -/
theorem first_store4 (x2 : Vec Ideal S5000x1 .f32) (x0 x1 : Vec Ideal S5000x128 .f32) (x3 x5 : Vec Ideal S128x128 .f32)
    (x4 x6 : Vec Ideal S1x128 .f32) :
    k4_pay2 (F := Ideal) x2 x0 x1 x3 x5 x4 x6 = firstLayer x0 x1 x2 x3 x4 x5 x6 := by
  unfold k4_pay2 k4_pay1
  exact kernel_firstLayer dot_S5000x128_S128x128_S5000x128_1_0_0_1_n_n.wf bitsLt_bf16_f32 x2 x0 x1 x3 x5 x4 x6 _ _ _ _ _ _ _

/-- The index maps over the grid: the row-tiled windows are at block (t, 0), the others at (0, 0). -/
theorem blocks_at4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 ∧ t.val < 10 :=
  (by decide +kernel : ∀ t : Fin grid4.N, _)

/-- A whole-array window's block is its array. -/
theorem whole4_3 (c : Dev nD) (t : Fin cfg4.N) : iblk4 V c 3 t = V c (Pipeline.arrRef spec4 3) := by
  obtain ⟨-, -, -, -, -, -, e0, e1, -⟩ := blocks_at4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega
theorem whole4_4 (c : Dev nD) (t : Fin cfg4.N) : iblk4 V c 4 t = V c (Pipeline.arrRef spec4 4) := by
  obtain ⟨-, -, -, -, -, -, -, -, e0, e1, -⟩ := blocks_at4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega
theorem whole4_5 (c : Dev nD) (t : Fin cfg4.N) : iblk4 V c 5 t = V c (Pipeline.arrRef spec4 5) := by
  obtain ⟨-, -, -, -, -, -, -, -, -, -, e0, e1, -⟩ := blocks_at4 t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega
theorem whole4_6 (c : Dev nD) (t : Fin cfg4.N) : iblk4 V c 6 t = V c (Pipeline.arrRef spec4 6) := by
  obtain ⟨-, -, -, -, -, -, -, -, -, -, -, -, e0, e1, -⟩ := blocks_at4 t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Row p of block t of a row-tiled window is row 5000·t + p of its array. -/
theorem rows4_0 (c : Dev nD) (t : Fin cfg4.N) (p : Fin 5000) (k : Fin 128) (h : t.val * 5000 + p.val < 50000) :
    iblk4 V c 0 t (ix2 p k) = V c (Pipeline.arrRef spec4 0) (ix2 (⟨t.val * 5000 + p.val, h⟩ : Fin 50000) k) := by
  obtain ⟨e0, e1, -⟩ := blocks_at4 t
  show V c (Pipeline.arrRef spec4 0) (((cfg4.win 0).blk t).view.emb (ix2 p k)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega
theorem rows4_1 (c : Dev nD) (t : Fin cfg4.N) (p : Fin 5000) (k : Fin 128) (h : t.val * 5000 + p.val < 50000) :
    iblk4 V c 1 t (ix2 p k) = V c (Pipeline.arrRef spec4 1) (ix2 (⟨t.val * 5000 + p.val, h⟩ : Fin 50000) k) := by
  obtain ⟨-, -, e0, e1, -⟩ := blocks_at4 t
  show V c (Pipeline.arrRef spec4 1) (((cfg4.win 1).blk t).view.emb (ix2 p k)) = _
  refine congrArg _ (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * k.val = k.val; omega
theorem rows4_2 (c : Dev nD) (t : Fin cfg4.N) (p : Fin 5000) (h : t.val * 5000 + p.val < 50000) :
    iblk4 V c 2 t (ix2 p (0 : Fin 1)) = V c (Pipeline.arrRef spec4 2) (ix2 (⟨t.val * 5000 + p.val, h⟩ : Fin 50000) (0 : Fin 1)) := by
  obtain ⟨-, -, -, -, e0, e1, -⟩ := blocks_at4 t
  show V c (Pipeline.arrRef spec4 2) (((cfg4.win 2).blk t).view.emb (ix2 p (0 : Fin 1))) = _
  refine congrArg _ (funext fun a => Fin.ext ?_)
  match a with
  | ⟨0, _⟩ => show win4_2.index t (0 : Fin 2) * 5000 + 1 * p.val = t.val * 5000 + p.val; omega
  | ⟨1, _⟩ => show win4_2.index t (1 : Fin 2) * 1 + 1 * 0 = 0; omega

set_option maxHeartbeats 4000000 in
/-- What point t writes back to output 7 is block t of the residual of the whole arrays. -/
theorem flushed4_7 (c : Dev nD) (t : Fin cfg4.N) :
    (dat4 V c).flushed 7 t = ((cfg4.win 7).blk t).view.read (Elt Ideal)
      (rowAffine (n := 50000) (V c (Pipeline.arrRef spec4 1)) (V c (Pipeline.arrRef spec4 5)) (V c (Pipeline.arrRef spec4 6))) := by
  show (cfg4.win 7).cut (grid4.coords t) ((dat4 V c).after 7 t) = _
  rw [after4_7]
  unfold out4_7
  rw [View.canon_unit_zero origin4]
  simp only [View.ld_unit_zero (S := S5000x128) origin4, View.ld_unit_zero (S := S128x128) origin4, View.ld_unit_zero (S := S1x128) origin4]
  rw [resid_store4, whole4_5, whole4_6]
  obtain ⟨-, -, -, -, -, -, -, -, -, -, -, -, -, -, e0, e1, -, -, ht⟩ := blocks_at4 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg4.win 7).blk t).view.emb (ix2 p q) = ix2 (⟨t.val * 5000 + p.val, hp⟩ : Fin 50000) q :=
    funext fun a => Fin.ext (by
      match a with
      | ⟨0, _⟩ => show win4_7.index t (0 : Fin 2) * 5000 + 1 * p.val = t.val * 5000 + p.val; omega
      | ⟨1, _⟩ => show win4_7.index t (1 : Fin 2) * 128 + 1 * q.val = q.val; omega)
  show rowAffine (iblk4 V c 1 t) (V c (Pipeline.arrRef spec4 5)) (V c (Pipeline.arrRef spec4 6)) (ix2 p q)
      = rowAffine (n := 50000) (V c (Pipeline.arrRef spec4 1)) (V c (Pipeline.arrRef spec4 5)) (V c (Pipeline.arrRef spec4 6))
          (((cfg4.win 7).blk t).view.emb (ix2 p q))
  rw [he]
  exact rowAffine_rows _ _ _ _ p ⟨t.val * 5000 + p.val, hp⟩ (fun k => rows4_1 V c t p k hp) q

set_option maxHeartbeats 4000000 in
/-- What point t writes back to output 8 is block t of the first layer of the whole arrays. -/
theorem flushed4_8 (c : Dev nD) (t : Fin cfg4.N) :
    (dat4 V c).flushed 8 t = ((cfg4.win 8).blk t).view.read (Elt Ideal)
      (firstLayer (n := 50000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6))) := by
  show (cfg4.win 8).cut (grid4.coords t) ((dat4 V c).after 8 t) = _
  rw [after4_8]
  unfold out4_8
  rw [View.canon_unit_zero origin4]
  simp only [View.ld_unit_zero (S := S5000x128) origin4, View.ld_unit_zero (S := S5000x1) origin4,
    View.ld_unit_zero (S := S128x128) origin4, View.ld_unit_zero (S := S1x128) origin4]
  rw [first_store4, whole4_3, whole4_4, whole4_5, whole4_6]
  obtain ⟨-, -, -, -, -, -, -, -, -, -, -, -, -, -, -, -, e0, e1, ht⟩ := blocks_at4 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg4.win 8).blk t).view.emb (ix2 p q) = ix2 (⟨t.val * 5000 + p.val, hp⟩ : Fin 50000) q :=
    funext fun a => Fin.ext (by
      match a with
      | ⟨0, _⟩ => show win4_8.index t (0 : Fin 2) * 5000 + 1 * p.val = t.val * 5000 + p.val; omega
      | ⟨1, _⟩ => show win4_8.index t (1 : Fin 2) * 128 + 1 * q.val = q.val; omega)
  show firstLayer (iblk4 V c 0 t) (iblk4 V c 1 t) (iblk4 V c 2 t) (V c (Pipeline.arrRef spec4 3)) (V c (Pipeline.arrRef spec4 4))
        (V c (Pipeline.arrRef spec4 5)) (V c (Pipeline.arrRef spec4 6)) (ix2 p q)
      = firstLayer (n := 50000) (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6))
          (((cfg4.win 8).blk t).view.emb (ix2 p q))
  rw [he]
  exact firstLayer_rows _ _ _ _ _ _ _ _ _ _ p ⟨t.val * 5000 + p.val, hp⟩ (fun k => rows4_0 V c t p k hp)
    (fun k => rows4_1 V c t p k hp) (rows4_2 V c t p hp) q

/-- An index of output w's array is in point t's block iff each coordinate is in the block's range. -/
theorem mem_block4_7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole (Pipeline.arrRef spec4 7)).slice (win4_7.rect t)).set ↔ _
  rw [View.set_slice_whole, Rect.mem_set_unit]
  exact Iff.rfl
theorem mem_block4_8 (t : Fin cfg4.N) (i : S50000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole (Pipeline.arrRef spec4 8)).slice (win4_8.rect t)).set ↔ _
  rw [View.set_slice_whole, Rect.mem_set_unit]
  exact Iff.rfl

/-- Every row lies in the block that 5000 divides it into. -/
theorem covered4_7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, -, -, -, -, -, -, e0, e1, -⟩ := blocks_at4 t
  have ht : t.val = (i 0).val / 5000 := rfl
  refine ⟨t, flush4_7 t, ?_⟩
  rw [mem_block4_7]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega
theorem covered4_8 (i : S50000x128.Idx) : ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, -, -, -, -, -, -, -, -, e0, e1, -⟩ := blocks_at4 t
  have ht : t.val = (i 0).val / 5000 := rfl
  refine ⟨t, flush4_8 t, ?_⟩
  rw [mem_block4_8]
  intro a
  match a with
  | ⟨0, _⟩ => show win4_8.index t (0 : Fin 2) * 5000 ≤ (i 0).val ∧ (i 0).val < win4_8.index t (0 : Fin 2) * 5000 + 5000; omega
  | ⟨1, _⟩ => show win4_8.index t (1 : Fin 2) * 128 ≤ (i 1).val ∧ (i 1).val < win4_8.index t (1 : Fin 2) * 128 + 128; omega

set_option maxHeartbeats 4000000 in
/-- After the launch output 7 is the residual X·V + bv of the operand arrays as the launch found them, -/
theorem resid_array4 (c : Dev nD) : (dat4 V c).arrAt 7 cfg4.N
    = rowAffine (n := 50000) (V c (Pipeline.arrRef spec4 1)) (V c (Pipeline.arrRef spec4 5)) (V c (Pipeline.arrRef spec4 6)) :=
  (dat4 V c).arrAt_eq_of_cover 7 _ (fun t _ => flushed4_7 V c t) covered4_7

set_option maxHeartbeats 4000000 in
/-- and output 8 their first layer. -/
theorem first_array4 (c : Dev nD) : (dat4 V c).arrAt 8 cfg4.N
    = firstLayer (n := 50000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6)) :=
  (dat4 V c).arrAt_eq_of_cover 8 _ (fun t _ => flushed4_8 V c t) covered4_8

end Cert.KernelIdeal.Whole

end
-- ==== Proof.Blocks5.lean ====
/-
  Launch 5 (the second layer of one stack, ten blocks of 5000 rows): what its output array holds afterwards.

  Block t of each row-tiled operand — the aggregated rows, the scale column, the residual — is rows 5000·t … 5000·t + 4999 of
  its array; the weights and the bias row are read whole at every point. The body's store is the second layer of the
  block's rows, so the output array ends at the second layer of the whole operand arrays as the launch finds them.
-/
import proofs.«101264_j58145267253837_2_alg».proof.Proof.Gen.KernelIdeal.Frame
import proofs.«101264_j58145267253837_2_alg».proof.Proof.ArmaLayers

set_option maxRecDepth 16384

noncomputable section

namespace Cert.KernelIdeal.Whole

open Cert.KernelIdeal Cert.KernelIdeal.Gen Cert.Arma Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin5 : (![0, 0] : Fin 2 → Nat) = fun _ => 0 := funext fun a => by fin_cases a <;> rfl

/-- The store is the second layer of the block. -/
theorem second_store5 (x1 : Vec Ideal S5000x1 .f32) (x0 : Vec Ideal S5000x128 .f32) (x3 : Vec Ideal S128x128 .f32)
    (x4 : Vec Ideal S1x128 .f32) (x2 : Vec Ideal S5000x128 .f32) :
    k5_pay1 (F := Ideal) x1 x0 x3 x4 x2 = secondLayer x0 x1 x2 x3 x4 := by
  unfold k5_pay1
  exact kernel_secondLayer dot_S5000x128_S128x128_S5000x128_1_0_0_1_n_n.wf bitsLt_bf16_f32 x1 x0 x2 x3 x4 _ _ _ _ _ _ _

/-- The index maps over the grid: the row-tiled windows are at block (t, 0), the others at (0, 0). -/
theorem blocks_at5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 10 :=
  (by decide +kernel : ∀ t : Fin grid5.N, _)

/-- A whole-array window's block is its array. -/
theorem whole5_3 (c : Dev nD) (t : Fin cfg5.N) : iblk5 V c 3 t = V c (Pipeline.arrRef spec5 3) := by
  obtain ⟨-, -, -, -, -, -, e0, e1, -⟩ := blocks_at5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega
theorem whole5_4 (c : Dev nD) (t : Fin cfg5.N) : iblk5 V c 4 t = V c (Pipeline.arrRef spec5 4) := by
  obtain ⟨-, -, -, -, -, -, -, -, e0, e1, -⟩ := blocks_at5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Row p of block t of a row-tiled window is row 5000·t + p of its array. -/
theorem rows5_0 (c : Dev nD) (t : Fin cfg5.N) (p : Fin 5000) (k : Fin 128) (h : t.val * 5000 + p.val < 50000) :
    iblk5 V c 0 t (ix2 p k) = V c (Pipeline.arrRef spec5 0) (ix2 (⟨t.val * 5000 + p.val, h⟩ : Fin 50000) k) := by
  obtain ⟨e0, e1, -⟩ := blocks_at5 t
  show V c (Pipeline.arrRef spec5 0) (((cfg5.win 0).blk t).view.emb (ix2 p k)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * k.val = k.val; omega
theorem rows5_1 (c : Dev nD) (t : Fin cfg5.N) (p : Fin 5000) (h : t.val * 5000 + p.val < 50000) :
    iblk5 V c 1 t (ix2 p (0 : Fin 1)) = V c (Pipeline.arrRef spec5 1) (ix2 (⟨t.val * 5000 + p.val, h⟩ : Fin 50000) (0 : Fin 1)) := by
  obtain ⟨-, -, e0, e1, -⟩ := blocks_at5 t
  show V c (Pipeline.arrRef spec5 1) (((cfg5.win 1).blk t).view.emb (ix2 p (0 : Fin 1))) = _
  refine congrArg _ (funext fun a => Fin.ext ?_)
  match a with
  | ⟨0, _⟩ => show win5_1.index t (0 : Fin 2) * 5000 + 1 * p.val = t.val * 5000 + p.val; omega
  | ⟨1, _⟩ => show win5_1.index t (1 : Fin 2) * 1 + 1 * 0 = 0; omega
theorem rows5_2 (c : Dev nD) (t : Fin cfg5.N) (p : Fin 5000) (k : Fin 128) (h : t.val * 5000 + p.val < 50000) :
    iblk5 V c 2 t (ix2 p k) = V c (Pipeline.arrRef spec5 2) (ix2 (⟨t.val * 5000 + p.val, h⟩ : Fin 50000) k) := by
  obtain ⟨-, -, -, -, e0, e1, -⟩ := blocks_at5 t
  show V c (Pipeline.arrRef spec5 2) (((cfg5.win 2).blk t).view.emb (ix2 p k)) = _
  refine congrArg _ (funext fun a => Fin.ext ?_)
  match a with
  | ⟨0, _⟩ => show win5_2.index t (0 : Fin 2) * 5000 + 1 * p.val = t.val * 5000 + p.val; omega
  | ⟨1, _⟩ => show win5_2.index t (1 : Fin 2) * 128 + 1 * k.val = k.val; omega

set_option maxHeartbeats 4000000 in
/-- What point t writes back is block t of the second layer of the whole arrays. -/
theorem flushed5_5 (c : Dev nD) (t : Fin cfg5.N) :
    (dat5 V c).flushed 5 t = ((cfg5.win 5).blk t).view.read (Elt Ideal)
      (secondLayer (n := 50000) (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero origin5]
  simp only [View.ld_unit_zero (S := S5000x128) origin5, View.ld_unit_zero (S := S5000x1) origin5,
    View.ld_unit_zero (S := S128x128) origin5, View.ld_unit_zero (S := S1x128) origin5]
  rw [second_store5, whole5_3, whole5_4]
  obtain ⟨-, -, -, -, -, -, -, -, -, -, e0, e1, ht⟩ := blocks_at5 t
  funext j
  obtain ⟨p, q, rfl⟩ : ∃ (p : Fin 5000) (q : Fin 128), j = ix2 p q := ⟨j 0, j 1, eq_ix2 j⟩
  have hp : t.val * 5000 + p.val < 50000 := by have := p.isLt; omega
  have he : ((cfg5.win 5).blk t).view.emb (ix2 p q) = ix2 (⟨t.val * 5000 + p.val, hp⟩ : Fin 50000) q :=
    funext fun a => Fin.ext (by
      match a with
      | ⟨0, _⟩ => show win5_5.index t (0 : Fin 2) * 5000 + 1 * p.val = t.val * 5000 + p.val; omega
      | ⟨1, _⟩ => show win5_5.index t (1 : Fin 2) * 128 + 1 * q.val = q.val; omega)
  show secondLayer (iblk5 V c 0 t) (iblk5 V c 1 t) (iblk5 V c 2 t) (V c (Pipeline.arrRef spec5 3)) (V c (Pipeline.arrRef spec5 4)) (ix2 p q)
      = secondLayer (n := 50000) (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb (ix2 p q))
  rw [he]
  exact secondLayer_rows _ _ _ _ _ _ _ _ p ⟨t.val * 5000 + p.val, hp⟩ (fun k => rows5_0 V c t p k hp)
    (rows5_1 V c t p hp) q (rows5_2 V c t p q hp)

/-- An index of the output's array is in point t's block iff each coordinate is in the block's range. -/
theorem mem_block5_5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Every row lies in the block that 5000 divides it into. -/
theorem covered5_5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, -, -, e0, e1, -⟩ := blocks_at5 t
  have ht : t.val = (i 0).val / 5000 := rfl
  refine ⟨t, flush5_5 t, ?_⟩
  rw [mem_block5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

set_option maxHeartbeats 4000000 in
/-- After the launch the output is the second layer of the operand arrays as the launch found them. -/
theorem second_array5 (c : Dev nD) : (dat5 V c).arrAt 5 cfg5.N
    = secondLayer (n := 50000) (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed5_5 V c t) covered5_5

end Cert.KernelIdeal.Whole

end
-- ==== Proof.Chain12.lean ====
/-
  The third stack and the result: from the fifth launch's exit to the return, where the result buffer holds the model of the
  argument arrays.
-/
import proofs.«101264_j58145267253837_2_alg».proof.Proof.Chain8
import proofs.«101264_j58145267253837_2_alg».proof.Proof.Blocks4
import proofs.«101264_j58145267253837_2_alg».proof.Proof.Blocks5

set_option maxRecDepth 16384

noncomputable section

namespace Cert.KernelIdeal.Whole

open Cert.KernelIdeal Cert.KernelIdeal.Gen Cert.Arma
open Idealize.ShloMosaic Idealize.ShloMosaic.TcCoe Idealize.SL.Sem

variable (m : (ℓ : Loc nD τ sig) → Buf (Elt Ideal) ℓ) (ρ : Dev nD → PrngReg) (c : Dev nD)

theorem at12_v7 : W12 m ρ c (Proc.devRef .tc main_v7) = (normCol (m ((c : Thread nD τ).loc main_arg2))) :=
  ((W12_arr m ρ c 2).trans (((dat4 (V11 m ρ) c).arrAt_in 2 rfl _).trans (A_eq4 (V11 m ρ) c 2))).trans (at11_v7 m ρ c)

theorem at12_v76 : W12 m ρ c (Proc.devRef .tc main_v76) = (addf (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8)))))) :=
  (W12_of_ne m ρ c main_v76 (by decide)).trans (at11_v76 m ρ c)

theorem at12_v88 : W12 m ρ c (Proc.devRef .tc main_v88) = (slab2 (m ((c : Thread nD τ).loc main_arg5))) :=
  (W12_of_ne m ρ c main_v88 (by decide)).trans (at11_v88 m ρ c)

theorem at12_v91 : W12 m ρ c (Proc.devRef .tc main_v91) = (asRowK (vec2 (m ((c : Thread nD τ).loc main_arg6)))) :=
  (W12_of_ne m ρ c main_v91 (by decide)).trans (at11_v91 m ρ c)

set_option maxHeartbeats 4000000 in
theorem at12_v92_0 : W12 m ρ c (Proc.devRef .tc main_v92_0) = (rowAffine (n := 50000) (m ((c : Thread nD τ).loc main_arg0)) (slab2 (m ((c : Thread nD τ).loc main_arg7))) (asRowK (vec2 (m ((c : Thread nD τ).loc main_arg8))))) := by
  have e1 : V11 m ρ c (Pipeline.arrRef spec4 1) = (m ((c : Thread nD τ).loc main_arg0)) := at11_arg0 m ρ c
  have e5 : V11 m ρ c (Pipeline.arrRef spec4 5) = (slab2 (m ((c : Thread nD τ).loc main_arg7))) := at11_v83 m ρ c
  have e6 : V11 m ρ c (Pipeline.arrRef spec4 6) = (asRowK (vec2 (m ((c : Thread nD τ).loc main_arg8)))) := at11_v86 m ρ c
  have h := (W12_arr m ρ c 7).trans (resid_array4 (V11 m ρ) c)
  rw [e1, e5, e6] at h
  exact h

set_option maxHeartbeats 4000000 in
theorem at12_v92_1 : W12 m ρ c (Proc.devRef .tc main_v92_1) = (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab2 (m ((c : Thread nD τ).loc main_arg3))) (asRowK (vec2 (m ((c : Thread nD τ).loc main_arg4)))) (slab2 (m ((c : Thread nD τ).loc main_arg7))) (asRowK (vec2 (m ((c : Thread nD τ).loc main_arg8))))) := by
  have e0 : V11 m ρ c (Pipeline.arrRef spec4 0) = (agg0 (m ((c : Thread nD τ).loc main_arg0)) (m ((c : Thread nD τ).loc main_arg1)) (m ((c : Thread nD τ).loc main_arg2))) := at11_v19 m ρ c
  have e1 : V11 m ρ c (Pipeline.arrRef spec4 1) = (m ((c : Thread nD τ).loc main_arg0)) := at11_arg0 m ρ c
  have e2 : V11 m ρ c (Pipeline.arrRef spec4 2) = (normCol (m ((c : Thread nD τ).loc main_arg2))) := at11_v7 m ρ c
  have e3 : V11 m ρ c (Pipeline.arrRef spec4 3) = (slab2 (m ((c : Thread nD τ).loc main_arg3))) := at11_v78 m ρ c
  have e4 : V11 m ρ c (Pipeline.arrRef spec4 4) = (asRowK (vec2 (m ((c : Thread nD τ).loc main_arg4)))) := at11_v81 m ρ c
  have e5 : V11 m ρ c (Pipeline.arrRef spec4 5) = (slab2 (m ((c : Thread nD τ).loc main_arg7))) := at11_v83 m ρ c
  have e6 : V11 m ρ c (Pipeline.arrRef spec4 6) = (asRowK (vec2 (m ((c : Thread nD τ).loc main_arg8)))) := at11_v86 m ρ c
  have h := (W12_arr m ρ c 8).trans (first_array4 (V11 m ρ) c)
  rw [e0, e1, e2, e3, e4, e5, e6] at h
  exact h

theorem at12_arg1 : W12 m ρ c (Proc.devRef .tc main_arg1) = (m ((c : Thread nD τ).loc main_arg1)) :=
  (W12_of_ne m ρ c main_arg1 (by decide)).trans (at11_arg1 m ρ c)

theorem at12_arg2 : W12 m ρ c (Proc.devRef .tc main_arg2) = (m ((c : Thread nD τ).loc main_arg2)) :=
  (W12_of_ne m ρ c main_arg2 (by decide)).trans (at11_arg2 m ρ c)

theorem at13_v7 : W13 m ρ c (Proc.devRef .tc main_v7) = (normCol (m ((c : Thread nD τ).loc main_arg2))) :=
  (show W13 m ρ c (Proc.devRef .tc main_v7) = W12 m ρ c (Proc.devRef .tc main_v7) by host_keep hostOps5).trans (at12_v7 m ρ c)

theorem at13_v76 : W13 m ρ c (Proc.devRef .tc main_v76) = (addf (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8)))))) :=
  (show W13 m ρ c (Proc.devRef .tc main_v76) = W12 m ρ c (Proc.devRef .tc main_v76) by host_keep hostOps5).trans (at12_v76 m ρ c)

theorem at13_v88 : W13 m ρ c (Proc.devRef .tc main_v88) = (slab2 (m ((c : Thread nD τ).loc main_arg5))) :=
  (show W13 m ρ c (Proc.devRef .tc main_v88) = W12 m ρ c (Proc.devRef .tc main_v88) by host_keep hostOps5).trans (at12_v88 m ρ c)

theorem at13_v91 : W13 m ρ c (Proc.devRef .tc main_v91) = (asRowK (vec2 (m ((c : Thread nD τ).loc main_arg6)))) :=
  (show W13 m ρ c (Proc.devRef .tc main_v91) = W12 m ρ c (Proc.devRef .tc main_v91) by host_keep hostOps5).trans (at12_v91 m ρ c)

theorem at13_v92_0 : W13 m ρ c (Proc.devRef .tc main_v92_0) = (rowAffine (n := 50000) (m ((c : Thread nD τ).loc main_arg0)) (slab2 (m ((c : Thread nD τ).loc main_arg7))) (asRowK (vec2 (m ((c : Thread nD τ).loc main_arg8))))) :=
  (show W13 m ρ c (Proc.devRef .tc main_v92_0) = W12 m ρ c (Proc.devRef .tc main_v92_0) by host_keep hostOps5).trans (at12_v92_0 m ρ c)

set_option maxHeartbeats 4000000 in
theorem at13_v102 : W13 m ρ c (Proc.devRef .tc main_v102) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab2 (m ((c : Thread nD τ).loc main_arg3))) (asRowK (vec2 (m ((c : Thread nD τ).loc main_arg4)))) (slab2 (m ((c : Thread nD τ).loc main_arg7))) (asRowK (vec2 (m ((c : Thread nD τ).loc main_arg8)))))) := by
  have h : W13 m ρ c (Proc.devRef .tc main_v102) = propagate (W12 m ρ c (Proc.devRef .tc main_arg1)) (W12 m ρ c (Proc.devRef .tc main_arg2)) (W12 m ρ c (Proc.devRef .tc main_v92_1)) := by
    show StableHlo.after hostOps5 (W12 m ρ c) (Proc.devRef .tc main_v102) = _
    generalize W12 m ρ c = Vp
    after_results_simp <;> rfl
  rw [h, at12_arg1, at12_arg2, at12_v92_1]

theorem at14_v76 : W14 m ρ c (Proc.devRef .tc main_v76) = (addf (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8)))))) :=
  (W14_of_ne m ρ c main_v76 (by decide)).trans (at13_v76 m ρ c)

set_option maxHeartbeats 4000000 in
theorem at14_v103 : W14 m ρ c (Proc.devRef .tc main_v103) = (stackOf (m ((c : Thread nD τ).loc main_arg0)) (m ((c : Thread nD τ).loc main_arg1)) (m ((c : Thread nD τ).loc main_arg2)) (slab2 (m ((c : Thread nD τ).loc main_arg3))) (asRowK (vec2 (m ((c : Thread nD τ).loc main_arg4)))) (slab2 (m ((c : Thread nD τ).loc main_arg5))) (asRowK (vec2 (m ((c : Thread nD τ).loc main_arg6)))) (slab2 (m ((c : Thread nD τ).loc main_arg7))) (asRowK (vec2 (m ((c : Thread nD τ).loc main_arg8))))) := by
  have e0 : V13 m ρ c (Pipeline.arrRef spec5 0) = (propagate (m ((c : Thread nD τ).loc main_arg1)) (m ((c : Thread nD τ).loc main_arg2)) (firstLayer (n := 50000) (agg0 (m ((c : Thread nD τ).loc main_arg0)) (m ((c : Thread nD τ).loc main_arg1)) (m ((c : Thread nD τ).loc main_arg2))) (m ((c : Thread nD τ).loc main_arg0)) (normCol (m ((c : Thread nD τ).loc main_arg2))) (slab2 (m ((c : Thread nD τ).loc main_arg3))) (asRowK (vec2 (m ((c : Thread nD τ).loc main_arg4)))) (slab2 (m ((c : Thread nD τ).loc main_arg7))) (asRowK (vec2 (m ((c : Thread nD τ).loc main_arg8)))))) := at13_v102 m ρ c
  have e1 : V13 m ρ c (Pipeline.arrRef spec5 1) = (normCol (m ((c : Thread nD τ).loc main_arg2))) := at13_v7 m ρ c
  have e2 : V13 m ρ c (Pipeline.arrRef spec5 2) = (rowAffine (n := 50000) (m ((c : Thread nD τ).loc main_arg0)) (slab2 (m ((c : Thread nD τ).loc main_arg7))) (asRowK (vec2 (m ((c : Thread nD τ).loc main_arg8))))) := at13_v92_0 m ρ c
  have e3 : V13 m ρ c (Pipeline.arrRef spec5 3) = (slab2 (m ((c : Thread nD τ).loc main_arg5))) := at13_v88 m ρ c
  have e4 : V13 m ρ c (Pipeline.arrRef spec5 4) = (asRowK (vec2 (m ((c : Thread nD τ).loc main_arg6)))) := at13_v91 m ρ c
  have h := (W14_arr m ρ c 5).trans (second_array5 (V13 m ρ) c)
  rw [e0, e1, e2, e3, e4] at h
  exact h

set_option maxHeartbeats 4000000 in
theorem at15_v106 : W15 m ρ c (Proc.devRef .tc main_v106) = (third (addf (addf (addf zeros (stackOf (m ((c : Thread nD τ).loc main_arg0)) (m ((c : Thread nD τ).loc main_arg1)) (m ((c : Thread nD τ).loc main_arg2)) (slab0 (m ((c : Thread nD τ).loc main_arg3))) (asRowK (vec0 (m ((c : Thread nD τ).loc main_arg4)))) (slab0 (m ((c : Thread nD τ).loc main_arg5))) (asRowK (vec0 (m ((c : Thread nD τ).loc main_arg6)))) (slab0 (m ((c : Thread nD τ).loc main_arg7))) (asRowK (vec0 (m ((c : Thread nD τ).loc main_arg8)))))) (stackOf (m ((c : Thread nD τ).loc main_arg0)) (m ((c : Thread nD τ).loc main_arg1)) (m ((c : Thread nD τ).loc main_arg2)) (slab1 (m ((c : Thread nD τ).loc main_arg3))) (asRowK (vec1 (m ((c : Thread nD τ).loc main_arg4)))) (slab1 (m ((c : Thread nD τ).loc main_arg5))) (asRowK (vec1 (m ((c : Thread nD τ).loc main_arg6)))) (slab1 (m ((c : Thread nD τ).loc main_arg7))) (asRowK (vec1 (m ((c : Thread nD τ).loc main_arg8)))))) (stackOf (m ((c : Thread nD τ).loc main_arg0)) (m ((c : Thread nD τ).loc main_arg1)) (m ((c : Thread nD τ).loc main_arg2)) (slab2 (m ((c : Thread nD τ).loc main_arg3))) (asRowK (vec2 (m ((c : Thread nD τ).loc main_arg4)))) (slab2 (m ((c : Thread nD τ).loc main_arg5))) (asRowK (vec2 (m ((c : Thread nD τ).loc main_arg6)))) (slab2 (m ((c : Thread nD τ).loc main_arg7))) (asRowK (vec2 (m ((c : Thread nD τ).loc main_arg8))))))) := by
  have h : W15 m ρ c (Proc.devRef .tc main_v106) = third (addf (F := Ideal) (φ := .f32) ((W14 m ρ c (Proc.devRef .tc main_v76)) : Nodes) ((W14 m ρ c (Proc.devRef .tc main_v103)) : Nodes)) := by
    show StableHlo.after hostOps6 (W14 m ρ c) (Proc.devRef .tc main_v106) = _
    generalize W14 m ρ c = Vp
    after_results_simp <;> rfl
  rw [h, at14_v76, at14_v103]

/-- At the return the result buffer holds the model of the argument arrays. -/
theorem result_model : W15 m ρ c (Proc.devRef .tc main_v106) = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  at15_v106 m ρ c

end Cert.KernelIdeal.Whole

end
-- ==== Proof.RefModel.lean ====
/-
  The idealized reference program's result as the same function of its nine argument arrays.

  The reference computes each stack with whole-array host operations: general dot products, the bias rows and the scale
  column broadcast over the node array, a maximum against a broadcast zero. Its composed result term folds, layer by
  layer, into the two dense layers of a stack around the same propagation, which is the kernel program's model: the two
  programs' degrees, scales, gathers and scatter-adds are the same operations of the same arrays, and a bias vector laid
  out as a row by a broadcast is the row a reshape makes of it.
-/
import proofs.«101264_j58145267253837_2_alg».proof.Proof.ArmaLayers
import proofs.«101264_j58145267253837_2_alg».proof.Proof.Gen.ReferenceIdeal.Run
import Idealize.ShloMosaic.PureOps.Ideal

noncomputable section

namespace Cert.ReferenceIdeal.Whole

open Cert.ReferenceIdeal Cert.ReferenceIdeal.Facts₀ Cert.ReferenceIdeal.Facts Cert.Arma
open Idealize.ShloMosaic Idealize.ShloMosaic.TcCoe Idealize.SL.Sem

abbrev Nodes := FVec Ideal S50000x128 .f32
abbrev Edges := (⟨S800000, .i32⟩ : BufTy).Contents (Elt Ideal)
abbrev Mats := FVec Ideal S3x128x128 .f32
abbrev Rows := FVec Ideal S3x128 .f32

/-- The all-zero node array. -/
def zeros : Nodes :=
  broadcastInDim S50000x128 ![] bcast_S_S50000x128 (constant (F := Ideal) S_ .f32 0x00000000#32)

/-- Each node's scale: (max 1 (number of edges ending at it)) ^ (-1/2), as a column. -/
def normCol (dst : Edges) : FVec Ideal S50000x1 .f32 :=
  broadcastInDim S50000x1 ![0] bcast_S50000_S50000x1_0
    (Host.powf (F := Ideal)
      (maximumf (F := Ideal) (broadcastInDim S50000 ![] bcast_S_S50000 (id (constant (F := Ideal) S_ .f32 0x3F800000#32)))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32))))
      (broadcastInDim S50000 ![] bcast_S_S50000 (constant (F := Ideal) S_ .f32 0xBF000000#32)))

/-- For every node, the sum of the rows of `h` at the sources of the edges ending at it. -/
def propagate (src dst : Edges) (h : Nodes) : Nodes :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The propagated scaled features: shared by the three stacks. -/
def agg0 (feats : Nodes) (src dst : Edges) : Nodes :=
  propagate src dst (mulf (F := Ideal) feats (broadcastInDim S50000x128 ![0, 1] bcast_S50000x1_S50000x128_0_1 (normCol dst)))

/-- Matrix k of a stack of three. -/
def slab0 (X : Mats) : FVec Ideal S128x128 .f32 :=
  shapeCast S128x128 (extractStridedSlice S1x128x128 ![0, 0, 0] X slices_S3x128x128_S1x128x128_0_0_0) shapeCasts_S1x128x128_S128x128
def slab1 (X : Mats) : FVec Ideal S128x128 .f32 :=
  shapeCast S128x128 (extractStridedSlice S1x128x128 ![1, 0, 0] X slices_S3x128x128_S1x128x128_1_0_0) shapeCasts_S1x128x128_S128x128
def slab2 (X : Mats) : FVec Ideal S128x128 .f32 :=
  shapeCast S128x128 (extractStridedSlice S1x128x128 ![2, 0, 0] X slices_S3x128x128_S1x128x128_2_0_0) shapeCasts_S1x128x128_S128x128

/-- Row k of a stack of three, as a vector. -/
def vec0 (B : Rows) : FVec Ideal S128 .f32 :=
  shapeCast S128 (extractStridedSlice S1x128 ![0, 0] B slices_S3x128_S1x128_0_0) shapeCasts_S1x128_S128
def vec1 (B : Rows) : FVec Ideal S128 .f32 :=
  shapeCast S128 (extractStridedSlice S1x128 ![1, 0] B slices_S3x128_S1x128_1_0) shapeCasts_S1x128_S128
def vec2 (B : Rows) : FVec Ideal S128 .f32 :=
  shapeCast S128 (extractStridedSlice S1x128 ![2, 0] B slices_S3x128_S1x128_2_0) shapeCasts_S1x128_S128

/-- A vector as a [1, 128] row, by a broadcast. -/
def asRowK (v : FVec Ideal S128 .f32) : FVec Ideal S1x128 .f32 :=
  broadcastInDim S1x128 ![1] bcast_S128_S1x128_1 v

/-- One stack: the first layer, propagated, through the second layer. -/
def stackOf (feats : Nodes) (src dst : Edges) (W0 : FVec Ideal S128x128 .f32)
    (b0 : FVec Ideal S1x128 .f32) (W : FVec Ideal S128x128 .f32)
    (bw : FVec Ideal S1x128 .f32) (V : FVec Ideal S128x128 .f32)
    (bv : FVec Ideal S1x128 .f32) : Nodes :=
  secondLayer (n := 50000) (propagate src dst (firstLayer (n := 50000) (agg0 feats src dst) feats (normCol dst) W0 b0 V bv))
    (normCol dst) (rowAffine (n := 50000) feats V bv) W bw

/-- The three stacks summed from zero. -/
def stackSum (s0 s1 s2 : Nodes) : Nodes := addf (F := Ideal) (addf (F := Ideal) (addf (F := Ideal) zeros s0) s1) s2

/-- The sum over three. -/
def third (s : Nodes) : Nodes :=
  Host.divf (F := Ideal) s (broadcastInDim S50000x128 ![] bcast_S_S50000x128 (constant (F := Ideal) S_ .f32 0x40400000#32))

/-- The whole model. -/
def model (feats : Nodes) (src dst : Edges) (W0 : Mats) (B0 : Rows) (W : Mats) (Bw : Rows) (Vv : Mats) (Bv : Rows) : Nodes :=
  third (stackSum
    (stackOf feats src dst (slab0 W0) (asRowK (vec0 B0)) (slab0 W) (asRowK (vec0 Bw)) (slab0 Vv) (asRowK (vec0 Bv)))
    (stackOf feats src dst (slab1 W0) (asRowK (vec1 B0)) (slab1 W) (asRowK (vec1 Bw)) (slab1 Vv) (asRowK (vec1 Bv)))
    (stackOf feats src dst (slab2 W0) (asRowK (vec2 B0)) (slab2 W) (asRowK (vec2 Bw)) (slab2 Vv) (asRowK (vec2 Bv))))

/-! ## The reference's dense steps are the two layers -/

theorem first_host (A X : Nodes) (d : FVec Ideal S50000x1 .f32) (W0 : FVec Ideal S128x128 .f32) (b0 : FVec Ideal S1x128 .f32)
    (V : FVec Ideal S128x128 .f32) (bv : FVec Ideal S1x128 .f32) :
    mulf (F := Ideal) (maximumf (F := Ideal)
        (addf (F := Ideal)
          (addf (F := Ideal) (Host.dotGeneral (F := Ideal) dot_S50000x128_S128x128_S50000x128_1_0_0_1_n_n none
              (mulf (F := Ideal) A (broadcastInDim S50000x128 ![0, 1] bcast_S50000x1_S50000x128_0_1 d)) W0)
            (broadcastInDim S50000x128 ![0, 1] bcast_S1x128_S50000x128_0_1 b0))
          (addf (F := Ideal) (Host.dotGeneral (F := Ideal) dot_S50000x128_S128x128_S50000x128_1_0_0_1_n_n none X V)
            (broadcastInDim S50000x128 ![0, 1] bcast_S1x128_S50000x128_0_1 bv)))
        (broadcastInDim S50000x128 ![] bcast_S_S50000x128 (constant (F := Ideal) S_ .f32 0x00000000#32)))
      (broadcastInDim S50000x128 ![0, 1] bcast_S50000x1_S50000x128_0_1 d)
      = firstLayer (n := 50000) A X d W0 b0 V bv :=
  host_firstLayer dot_S50000x128_S128x128_S50000x128_1_0_0_1_n_n.wf A X d W0 b0 V bv _ _ _ _

theorem second_host (A X : Nodes) (d : FVec Ideal S50000x1 .f32) (W : FVec Ideal S128x128 .f32) (bw : FVec Ideal S1x128 .f32)
    (V : FVec Ideal S128x128 .f32) (bv : FVec Ideal S1x128 .f32) :
    maximumf (F := Ideal)
        (addf (F := Ideal)
          (addf (F := Ideal) (Host.dotGeneral (F := Ideal) dot_S50000x128_S128x128_S50000x128_1_0_0_1_n_n none
              (mulf (F := Ideal) A (broadcastInDim S50000x128 ![0, 1] bcast_S50000x1_S50000x128_0_1 d)) W)
            (broadcastInDim S50000x128 ![0, 1] bcast_S1x128_S50000x128_0_1 bw))
          (addf (F := Ideal) (Host.dotGeneral (F := Ideal) dot_S50000x128_S128x128_S50000x128_1_0_0_1_n_n none X V)
            (broadcastInDim S50000x128 ![0, 1] bcast_S1x128_S50000x128_0_1 bv)))
        (broadcastInDim S50000x128 ![] bcast_S_S50000x128 (constant (F := Ideal) S_ .f32 0x00000000#32))
      = secondLayer (n := 50000) A d (rowAffine (n := 50000) X V bv) W bw :=
  host_secondLayer dot_S50000x128_S128x128_S50000x128_1_0_0_1_n_n.wf A X d W bw V bv _ _ _

set_option maxRecDepth 131072 in
set_option maxHeartbeats 8000000 in
/-- The reference run's result term is the model of its argument arrays. -/
theorem result_eq_model (m : (ℓ : Loc nD τ sig) → Buf (Elt Ideal) ℓ) (c : Dev nD) :
    Cert.ReferenceIdeal.Value.res_main_v205 (F := Ideal) m c
      = model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v205
  rw [first_host, first_host, first_host]
  rw [second_host, second_host, second_host]
  rfl

end Cert.ReferenceIdeal.Whole

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.Bridge.lean ====
/-
  The two programs' models are one function.

  Piece by piece the kernel program's model and the reference's are the same operations of the same arrays — the degree
  count, the scale, the gather and the scatter-add, the slices of the stacked weights — except for how a bias vector is laid
  out as a [1, 128] row: the kernel program reshapes it, the reference broadcasts it along a new leading axis. Both rows hold
  the vector's entry k at (0, k).
-/
import proofs.«101264_j58145267253837_2_alg».proof.Proof.KernelModel
import proofs.«101264_j58145267253837_2_alg».proof.Proof.RefModel
import proofs.«101264_j58145267253837_2_alg».proof.Proof.LibAsRow

noncomputable section

namespace Cert.Bridge

open Idealize.ShloMosaic Cert.Lib

theorem zeros_eq : Cert.KernelIdeal.Whole.zeros = Cert.ReferenceIdeal.Whole.zeros := rfl

theorem normCol_eq (dst : Cert.KernelIdeal.Whole.Edges) :
    Cert.KernelIdeal.Whole.normCol dst = Cert.ReferenceIdeal.Whole.normCol dst := rfl

theorem propagate_eq (src dst : Cert.KernelIdeal.Whole.Edges) (h : Cert.KernelIdeal.Whole.Nodes) :
    Cert.KernelIdeal.Whole.propagate src dst h = Cert.ReferenceIdeal.Whole.propagate src dst h := rfl

theorem agg0_eq (feats : Cert.KernelIdeal.Whole.Nodes) (src dst : Cert.KernelIdeal.Whole.Edges) :
    Cert.KernelIdeal.Whole.agg0 feats src dst = Cert.ReferenceIdeal.Whole.agg0 feats src dst := by
  unfold Cert.KernelIdeal.Whole.agg0 Cert.ReferenceIdeal.Whole.agg0
  rw [normCol_eq, propagate_eq]

theorem slab0_eq (X : Cert.KernelIdeal.Whole.Mats) : Cert.KernelIdeal.Whole.slab0 X = Cert.ReferenceIdeal.Whole.slab0 X := rfl
theorem slab1_eq (X : Cert.KernelIdeal.Whole.Mats) : Cert.KernelIdeal.Whole.slab1 X = Cert.ReferenceIdeal.Whole.slab1 X := rfl
theorem slab2_eq (X : Cert.KernelIdeal.Whole.Mats) : Cert.KernelIdeal.Whole.slab2 X = Cert.ReferenceIdeal.Whole.slab2 X := rfl
theorem vec0_eq (B : Cert.KernelIdeal.Whole.Rows) : Cert.KernelIdeal.Whole.vec0 B = Cert.ReferenceIdeal.Whole.vec0 B := rfl
theorem vec1_eq (B : Cert.KernelIdeal.Whole.Rows) : Cert.KernelIdeal.Whole.vec1 B = Cert.ReferenceIdeal.Whole.vec1 B := rfl
theorem vec2_eq (B : Cert.KernelIdeal.Whole.Rows) : Cert.KernelIdeal.Whole.vec2 B = Cert.ReferenceIdeal.Whole.vec2 B := rfl

/-- A vector reshaped into a row is the vector broadcast into a row. -/
theorem asRow_eq (v : FVec Ideal ⟨1, ![128]⟩ .f32) :
    Cert.KernelIdeal.Whole.asRowK v = Cert.ReferenceIdeal.Whole.asRowK v :=
  (shapeCast_eq_asRow v _).trans (broadcastInDim_eq_asRow v _).symm

theorem stackOf_eq (feats : Cert.KernelIdeal.Whole.Nodes) (src dst : Cert.KernelIdeal.Whole.Edges)
    (W0 : FVec Ideal ⟨2, ![128, 128]⟩ .f32) (b0 : FVec Ideal ⟨2, ![1, 128]⟩ .f32) (W : FVec Ideal ⟨2, ![128, 128]⟩ .f32)
    (bw : FVec Ideal ⟨2, ![1, 128]⟩ .f32) (V : FVec Ideal ⟨2, ![128, 128]⟩ .f32) (bv : FVec Ideal ⟨2, ![1, 128]⟩ .f32) :
    Cert.KernelIdeal.Whole.stackOf feats src dst W0 b0 W bw V bv = Cert.ReferenceIdeal.Whole.stackOf feats src dst W0 b0 W bw V bv := by
  unfold Cert.KernelIdeal.Whole.stackOf Cert.ReferenceIdeal.Whole.stackOf
  rw [agg0_eq, normCol_eq, propagate_eq]

theorem stackSum_eq (s0 s1 s2 : Cert.KernelIdeal.Whole.Nodes) :
    Cert.KernelIdeal.Whole.stackSum s0 s1 s2 = Cert.ReferenceIdeal.Whole.stackSum s0 s1 s2 := rfl

theorem third_eq (s : Cert.KernelIdeal.Whole.Nodes) : Cert.KernelIdeal.Whole.third s = Cert.ReferenceIdeal.Whole.third s := rfl

/-- The kernel program's model is the reference's. -/
theorem model_eq (feats : Cert.KernelIdeal.Whole.Nodes) (src dst : Cert.KernelIdeal.Whole.Edges)
    (W0 : Cert.KernelIdeal.Whole.Mats) (B0 : Cert.KernelIdeal.Whole.Rows) (W : Cert.KernelIdeal.Whole.Mats) (Bw : Cert.KernelIdeal.Whole.Rows)
    (Vv : Cert.KernelIdeal.Whole.Mats) (Bv : Cert.KernelIdeal.Whole.Rows) :
    Cert.KernelIdeal.Whole.model feats src dst W0 B0 W Bw Vv Bv = Cert.ReferenceIdeal.Whole.model feats src dst W0 B0 W Bw Vv Bv := by
  unfold Cert.KernelIdeal.Whole.model Cert.ReferenceIdeal.Whole.model
  rw [third_eq, stackSum_eq, stackOf_eq, stackOf_eq, stackOf_eq]
  simp only [asRow_eq, slab0_eq, slab1_eq, slab2_eq, vec0_eq, vec1_eq, vec2_eq]

end Cert.Bridge

end
-- ==== Proof.lean ====
/-
  The certificate: the six-launch kernel program against its whole-array reference, on the extended reals.

  Both programs compute, from the node features, the edge list and three stacks of weights, the average of three stacks of a
  two-layer residual graph convolution. They share every irregular step — the degree count, the scale d = degree^(-1/2),
  the gather at the sources and the scatter-add at the destinations — as the same host operations of the same arrays. They
  differ in the dense steps: the reference applies general dot products and broadcasts to whole node arrays, the kernel
  program runs them in ten blocks of 5000 rows on the matrix unit, computes the first propagation and each stack's
  residual X·V + bv once where the reference repeats them, and folds the two scalings by d into the neighbouring launches.
  Each dense step is row-local, so the blocks assemble to the whole-array layers (Blocks0 … Blocks5 over ArmaLayers); the
  host stretches between the launches are read back one buffer at a time (Chain3 … Chain12), giving the kernel program's
  result as one function of the arguments (KernelModel); the reference's composed result term folds into the same
  function (RefModel, Bridge). No law of the extended reals beyond the layers' definitions is used, so the inputs'
  finiteness is never opened. The frames are the generated ones, the reference's its generated run; the ideal pass
  rewrote nothing, so nothing is to be preserved.
-/
import proofs.«101264_j58145267253837_2_alg».proof.Defs
import proofs.«101264_j58145267253837_2_alg».proof.Proof.Gen.Kernel
import proofs.«101264_j58145267253837_2_alg».proof.Proof.Gen.Kernel.Skeleton
import proofs.«101264_j58145267253837_2_alg».proof.Proof.Gen.Kernel.Launch
import proofs.«101264_j58145267253837_2_alg».proof.Proof.Gen.Kernel.Points
import proofs.«101264_j58145267253837_2_alg».proof.Proof.Gen.Kernel.Frame
import proofs.«101264_j58145267253837_2_alg».proof.Proof.Gen.KernelIdeal
import proofs.«101264_j58145267253837_2_alg».proof.Proof.Gen.KernelIdeal.Skeleton
import proofs.«101264_j58145267253837_2_alg».proof.Proof.Gen.KernelIdeal.Launch
import proofs.«101264_j58145267253837_2_alg».proof.Proof.Gen.KernelIdeal.Points
import proofs.«101264_j58145267253837_2_alg».proof.Proof.Gen.KernelIdeal.Frame
import proofs.«101264_j58145267253837_2_alg».proof.Proof.Gen.ReferenceIdeal
import proofs.«101264_j58145267253837_2_alg».proof.Proof.Gen.Pre_finite_inputs
import proofs.«101264_j58145267253837_2_alg».proof.Proof.Gen.ReferenceIdeal.Run
import proofs.«101264_j58145267253837_2_alg».proof.Proof.KernelRun
import proofs.«101264_j58145267253837_2_alg».proof.Proof.Chain12
import proofs.«101264_j58145267253837_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the model of the (agreeing) argument arrays in the result buffer. -/
theorem algebraic : Cert.algebraic_KernelIdeal_ReferenceIdeal := by
  intro m ρ m' ρ' _ hagree
  refine ⟨fun c => Cert.KernelIdeal.Whole.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_model m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Whole.result_eq_model, h0, h1, h2, h3, h4, h5, h6, h7, h8]
    exact (Cert.Bridge.model_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
